-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S131x128 : Shape := ⟨2, ![131, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S131x128 : S_.BroadcastsInDim S131x128 (![] : Fin 0 → Fin S131x128.rank)
  reducesTo_S131x128_S_d0_1 : S131x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : FVec F S50000x3 .f32) (main_arg2 : IVec S2x800000 32) (main_arg3 : FVec F S131x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S131x128 .f32 := Host.absf main_arg3
  let main_cst_2 : FVec F S_ .f32 := constant S_ .f32 0x7F800000#32
  let main_v10 : FVec F S131x128 .f32 := broadcastInDim S131x128 ![] bcast_S_S131x128 main_cst_2
  let main_v11 : IVec S131x128 1 := cmpf .olt main_v9 main_v10
  let main_c_3 : IVec S_ 1 := constantI S_ 1 1#1
  let main_v12 : IVec S_ 1 := (fun x v => Host.reduce IntOp.andi x v reducesTo_S131x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S131x128 : Shape := ⟨2, ![131, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S64x128 : Shape := ⟨2, ![64, 128]⟩
abbrev S3x128 : Shape := ⟨2, ![3, 128]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S8000x64 : Shape := ⟨2, ![8000, 64]⟩
abbrev S8000x3 : Shape := ⟨2, ![8000, 3]⟩
abbrev S8000x128 : Shape := ⟨2, ![8000, 128]⟩
abbrev S1x128 : Shape := ⟨2, ![1, 128]⟩
abbrev S1x64 : Shape := ⟨2, ![1, 64]⟩
abbrev S50000 : Shape := ⟨1, ![50000]⟩
abbrev S50000x1 : Shape := ⟨2, ![50000, 1]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 81
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S131x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S64x128, .bf16⟩
  | .hbm, ⟨19, _⟩ => ⟨S64x128, .f32⟩
  | .hbm, ⟨20, _⟩ => ⟨S64x128, .bf16⟩
  | .hbm, ⟨21, _⟩ => ⟨S3x128, .f32⟩
  | .hbm, ⟨22, _⟩ => ⟨S3x128, .bf16⟩
  | .hbm, ⟨23, _⟩ => ⟨S128x64, .bf16⟩
  | .hbm, ⟨24, _⟩ => ⟨S50000x64, .bf16⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x3, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x3, .f32⟩
  | .hbm, ⟨61, _⟩ => ⟨S800000x3, .f32⟩
  | .hbm, ⟨62, _⟩ => ⟨S800000x3, .bf16⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S50000x1, .f32⟩
  | .hbm, ⟨75, _⟩ => ⟨S64x128, .f32⟩
  | .hbm, ⟨76, _⟩ => ⟨S64x128, .bf16⟩
  | .hbm, ⟨77, _⟩ => ⟨S64x128, .f32⟩
  | .hbm, ⟨78, _⟩ => ⟨S64x128, .bf16⟩
  | .hbm, ⟨79, _⟩ => ⟨S128x64, .bf16⟩
  | .hbm, ⟨80, _⟩ => ⟨S50000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x3, .bf16⟩
  | .local _ .vmem, ⟨5, _⟩ => ⟨S8000x3, .bf16⟩
  | .local _ .vmem, ⟨6, _⟩ => ⟨S64x128, .bf16⟩
  | .local _ .vmem, ⟨7, _⟩ => ⟨S64x128, .bf16⟩
  | .local _ .vmem, ⟨8, _⟩ => ⟨S3x128, .bf16⟩
  | .local _ .vmem, ⟨9, _⟩ => ⟨S128, .f32⟩
  | .local _ .vmem, ⟨10, _⟩ => ⟨S128x64, .bf16⟩
  | .local _ .vmem, ⟨11, _⟩ => ⟨S64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S64x128, .bf16⟩
  | .local _ .vmem, ⟨21, _⟩ => ⟨S64x128, .bf16⟩
  | .local _ .vmem, ⟨22, _⟩ => ⟨S128, .f32⟩
  | .local _ .vmem, ⟨23, _⟩ => ⟨S128x64, .bf16⟩
  | .local _ .vmem, ⟨24, _⟩ => ⟨S64, .f32⟩
  | .local _ .vmem, ⟨25, _⟩ => ⟨S5000x64, .f32⟩
  | .local _ .vmem, ⟨26, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem8_1 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x3 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S131x128_S64x128_0_0 : S131x128.Slices ![0, 0] S64x128
  slices_S131x128_S64x128_64_0 : S131x128.Slices ![64, 0] S64x128
  bitsLt_bf16_f32 : FTy.bits .bf16 < FTy.bits .f32
  slices_S131x128_S3x128_128_0 : S131x128.Slices ![128, 0] S3x128
  bcast_S_S800000 : S_.BroadcastsInDim S800000 (![] : Fin 0 → Fin S800000.rank)
  bcast_S800000_S800000x1_0 : S800000.BroadcastsInDim S800000x1 (![0] : Fin 1 → Fin S800000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S8000x64_S64x128_S8000x128_1_0_0_1_n_n_wf : DotDims.WF S8000x64 S64x128 S8000x128 [1] [0] [0] [1] [] []
  dot_S8000x3_S3x128_S8000x128_1_0_0_1_n_n_wf : DotDims.WF S8000x3 S3x128 S8000x128 [1] [0] [0] [1] [] []
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x3.size a ≤ S800000x3.size a
  hwx0_2 : ∀ i : grid0.Coords, EltTy.bits .bf16 = 32 ∨ (Rect.block (s := S800000x3) S8000x3.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .bf16 = 32 ∨ (Rect.block (s := S3x128) S3x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .bf16 = 32 ∨ (Rect.block (s := S64x128) S64x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .bf16 = 32 ∨ (Rect.block (s := S128x64) S128x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x3_S3x128_S8000x128_1_0_0_1_n_n : DotDims S8000x3 S3x128 S8000x128 where
  lhsContracting := [1]
  rhsContracting := [0]
  lhsNonContracting := [0]
  rhsNonContracting := [1]
  lhsBatch := []
  rhsBatch := []
  wf := dot_S8000x3_S3x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v20) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S8000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S131x128 : Shape := ⟨2, ![131, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S800000x131 : Shape := ⟨2, ![800000, 131]⟩
abbrev S800000x128 : Shape := ⟨2, ![800000, 128]⟩
abbrev S1x128 : Shape := ⟨2, ![1, 128]⟩
abbrev S1x64 : Shape := ⟨2, ![1, 64]⟩
abbrev S50000 : Shape := ⟨1, ![50000]⟩
abbrev S50000x1 : Shape := ⟨2, ![50000, 1]⟩
abbrev S50000x128 : Shape := ⟨2, ![50000, 128]⟩

abbrev nBuf : Space → Nat
  | .hbm => 93
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S131x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x3, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x3, .f32⟩
  | .hbm, ⟨51, _⟩ => ⟨S800000x3, .f32⟩
  | .hbm, ⟨52, _⟩ => ⟨S800000x64, .f32⟩
  | .hbm, ⟨53, _⟩ => ⟨S800000x131, .f32⟩
  | .hbm, ⟨54, _⟩ => ⟨S800000x128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S800000x64, .f32⟩
  | .hbm, ⟨62, _⟩ => ⟨S1x64, .f32⟩
  | .hbm, ⟨63, _⟩ => ⟨S800000x64, .f32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_cst : Ref sig .tc := ⟨.hbm, 58, rfl⟩
abbrev main_call0_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x3_S800000x131_d1 : Shape.Concatenates [S800000x64, S800000x64, S800000x3] S800000x131 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S800000x131_S131x128_S800000x128_1_0_0_1_n_n_wf : DotDims.WF S800000x131 S131x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x131_S131x128_S800000x128_1_0_0_1_n_n : DotDims S800000x131 S131x128 S800000x128 where
  lhsContracting := [1]
  rhsContracting := [0]
  lhsNonContracting := [0]
  rhsNonContracting := [1]
  lhsBatch := []
  rhsBatch := []
  wf := dot_S800000x131_S131x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The two small networks of this certificate, written once over plain coordinates.

  A message row: from a source row `xi`, a target row `xj` (64 entries each) and a relative position `rp` (3 entries),
  a hidden layer of 128 units with a rectified linear unit, then 64 outputs. It is written in two arrangements of the
  first layer: SPLIT — three products `xi·(A − B) + xj·B + rp·C` — and JOINED — one product of the joined row
  `[xi, xj − xi, rp]` (131 entries) with the whole matrix whose row blocks are `A`, `B`, `C`.
  A node row: from a feature row `x`, a row of summed messages `s` and a count `cnt`, the mean `s / max cnt 1`, a hidden
  layer of 128 units over `[x, mean]`, again split (two products) or joined (one product over 128 entries), then 64 outputs.
  The array functions below read whole arrays row by row through these.
-/
import Idealize.ShloMosaic.PureOps.Ideal
import Idealize.ShloMosaic.PureOps.Ideal.Laws
import Idealize.ShloMosaic.Lib.ValueIdx

noncomputable section

namespace Cert.Mp

open Idealize.ShloMosaic Idealize.ShloMosaic.ValueIdx

/-- An extended real that is a real number. -/
def IsReal (x : EReal) : Prop := ∃ r : ℝ, x = (r : EReal)

/-- The zero both programs compare against in their rectified linear units. -/
abbrev Z : EReal := Ideal.ofBits .f32 0x00000000#32
/-- The one both programs clamp a count at. -/
abbrev One : EReal := Ideal.ofBits .f32 0x3F800000#32

/-! ## Where the split matrices sit inside the joined ones -/

/-- Rows 0–63, 64–127 and 128–130 of a matrix of 131 rows. -/
def lo131 (k : Fin 64) : Fin 131 := ⟨k.val, by have := k.isLt; omega⟩
def mid131 (k : Fin 64) : Fin 131 := ⟨64 + k.val, by have := k.isLt; omega⟩
def hi131 (k : Fin 3) : Fin 131 := ⟨128 + k.val, by have := k.isLt; omega⟩
/-- Rows 0–63 and 64–127 of a matrix of 128 rows. -/
def lo128 (k : Fin 64) : Fin 128 := ⟨k.val, by have := k.isLt; omega⟩
def hi128 (k : Fin 64) : Fin 128 := ⟨64 + k.val, by have := k.isLt; omega⟩

/-! ## One message row -/

/-- Hidden unit `h` of a message, first layer SPLIT in three products. -/
def msgHidSplit (xi xj : Fin 64 → EReal) (rp : Fin 3 → EReal) (wab wb : Fin 64 → Fin 128 → EReal)
    (wc : Fin 3 → Fin 128 → EReal) (b1 : Fin 128 → EReal) (h : Fin 128) : EReal :=
  max ((((∑ k, xi k * wab k h) + (∑ k, xj k * wb k h)) + (∑ k, rp k * wc k h)) + b1 h) Z

/-- Output `c` of a message row, first layer split. -/
def msgRowSplit (xi xj : Fin 64 → EReal) (rp : Fin 3 → EReal) (wab wb : Fin 64 → Fin 128 → EReal)
    (wc : Fin 3 → Fin 128 → EReal) (b1 : Fin 128 → EReal) (w2 : Fin 128 → Fin 64 → EReal) (b2 : Fin 64 → EReal)
    (c : Fin 64) : EReal :=
  (∑ h, msgHidSplit xi xj rp wab wb wc b1 h * w2 h c) + b2 c

/-- Three rows of 64, 64 and 3 entries joined into one of 131. -/
def cat3 (a b : Fin 64 → EReal) (d : Fin 3 → EReal) (k : Fin 131) : EReal :=
  if h₁ : k.val < 64 then a ⟨k.val, h₁⟩
  else if h₂ : k.val < 128 then b ⟨k.val - 64, by omega⟩
  else d ⟨k.val - 128, by omega⟩

/-- Hidden unit `h` of a message, first layer JOINED: one product of `[xi, xj − xi, rp]` with the whole matrix. -/
def msgHidCat (xi xj : Fin 64 → EReal) (rp : Fin 3 → EReal) (w1 : Fin 131 → Fin 128 → EReal)
    (b1 : Fin 128 → EReal) (h : Fin 128) : EReal :=
  max ((∑ k, cat3 xi (fun k => xj k - xi k) rp k * w1 k h) + b1 h) Z

/-- Output `c` of a message row, first layer joined. -/
def msgRowCat (xi xj : Fin 64 → EReal) (rp : Fin 3 → EReal) (w1 : Fin 131 → Fin 128 → EReal)
    (b1 : Fin 128 → EReal) (w2 : Fin 128 → Fin 64 → EReal) (b2 : Fin 64 → EReal) (c : Fin 64) : EReal :=
  (∑ h, msgHidCat xi xj rp w1 b1 h * w2 h c) + b2 c

/-! ## One node row -/

/-- The mean of the messages that reached a node: the summed row over the count clamped below at one. -/
def meanRow (s : Fin 64 → EReal) (cnt : EReal) (k : Fin 64) : EReal := Ideal.div (s k) (max cnt One)

/-- Hidden unit `h` of a node update, first layer SPLIT in two products. -/
def updHidSplit (x ag : Fin 64 → EReal) (w3x w3a : Fin 64 → Fin 128 → EReal) (b3 : Fin 128 → EReal) (h : Fin 128) : EReal :=
  max (((∑ k, x k * w3x k h) + (∑ k, ag k * w3a k h)) + b3 h) Z

/-- Output `c` of a node row, first layer split. -/
def updRowSplit (x ag : Fin 64 → EReal) (w3x w3a : Fin 64 → Fin 128 → EReal) (b3 : Fin 128 → EReal)
    (w4 : Fin 128 → Fin 64 → EReal) (b4 : Fin 64 → EReal) (c : Fin 64) : EReal :=
  (∑ h, updHidSplit x ag w3x w3a b3 h * w4 h c) + b4 c

/-- Two rows of 64 entries joined into one of 128. -/
def cat2 (a b : Fin 64 → EReal) (k : Fin 128) : EReal :=
  if h₁ : k.val < 64 then a ⟨k.val, h₁⟩ else b ⟨k.val - 64, by omega⟩

/-- Hidden unit `h` of a node update, first layer JOINED. -/
def updHidCat (x ag : Fin 64 → EReal) (w3 : Fin 128 → Fin 128 → EReal) (b3 : Fin 128 → EReal) (h : Fin 128) : EReal :=
  max ((∑ k, cat2 x ag k * w3 k h) + b3 h) Z

/-- Output `c` of a node row, first layer joined. -/
def updRowCat (x ag : Fin 64 → EReal) (w3 : Fin 128 → Fin 128 → EReal) (b3 : Fin 128 → EReal)
    (w4 : Fin 128 → Fin 64 → EReal) (b4 : Fin 64 → EReal) (c : Fin 64) : EReal :=
  (∑ h, updHidCat x ag w3 b3 h * w4 h c) + b4 c

/-! ## Whole arrays, row by row -/

/-- A matrix shape and a vector shape over literal extents. -/
abbrev Sh (a b : Nat) : Shape := ⟨2, ![a, b]⟩
abbrev Sh1 (a : Nat) : Shape := ⟨1, ![a]⟩

/-- The row and the column of a matrix index, as numbers below the literal extents. -/
abbrev r2 {a b : Nat} (i : (Sh a b).Idx) : Fin a := ⟨(i 0).val, idx2_lt0 i⟩
abbrev c2 {a b : Nat} (i : (Sh a b).Idx) : Fin b := ⟨(i 1).val, idx2_lt1 i⟩

/-- The message array `[800000, 64]`, first layer split: row `e` from rows `e` of the three edge arrays. -/
def msgArrSplit (xi xj : (Sh 800000 64).Idx → EReal) (rp : (Sh 800000 3).Idx → EReal)
    (wab wb : (Sh 64 128).Idx → EReal) (wc : (Sh 3 128).Idx → EReal) (b1 : (Sh1 128).Idx → EReal)
    (w2 : (Sh 128 64).Idx → EReal) (b2 : (Sh1 64).Idx → EReal) : (Sh 800000 64).Idx → EReal :=
  fun i => msgRowSplit (fun k => xi (ix2 (r2 i) k)) (fun k => xj (ix2 (r2 i) k)) (fun k => rp (ix2 (r2 i) k))
    (fun k h => wab (ix2 k h)) (fun k h => wb (ix2 k h)) (fun k h => wc (ix2 k h)) (fun h => b1 (ix1 h))
    (fun h c => w2 (ix2 h c)) (fun c => b2 (ix1 c)) (c2 i)

/-- The message array, first layer joined. -/
def msgArrCat (xi xj : (Sh 800000 64).Idx → EReal) (rp : (Sh 800000 3).Idx → EReal)
    (w1 : (Sh 131 128).Idx → EReal) (b1 : (Sh1 128).Idx → EReal)
    (w2 : (Sh 128 64).Idx → EReal) (b2 : (Sh1 64).Idx → EReal) : (Sh 800000 64).Idx → EReal :=
  fun i => msgRowCat (fun k => xi (ix2 (r2 i) k)) (fun k => xj (ix2 (r2 i) k)) (fun k => rp (ix2 (r2 i) k))
    (fun k h => w1 (ix2 k h)) (fun h => b1 (ix1 h)) (fun h c => w2 (ix2 h c)) (fun c => b2 (ix1 c)) (c2 i)

/-- The node array `[50000, 64]`, first layer split; the counts come as a column `[50000, 1]`. -/
def updArrSplit (x s : (Sh 50000 64).Idx → EReal) (cnt : (Sh 50000 1).Idx → EReal)
    (w3x w3a : (Sh 64 128).Idx → EReal) (b3 : (Sh1 128).Idx → EReal)
    (w4 : (Sh 128 64).Idx → EReal) (b4 : (Sh1 64).Idx → EReal) : (Sh 50000 64).Idx → EReal :=
  fun i => updRowSplit (fun k => x (ix2 (r2 i) k))
    (meanRow (fun k => s (ix2 (r2 i) k)) (cnt (ix2 (r2 i) (0 : Fin 1))))
    (fun k h => w3x (ix2 k h)) (fun k h => w3a (ix2 k h)) (fun h => b3 (ix1 h))
    (fun h c => w4 (ix2 h c)) (fun c => b4 (ix1 c)) (c2 i)

/-- The node array, first layer joined; the counts come as a vector `[50000]`. -/
def updArrCat (x s : (Sh 50000 64).Idx → EReal) (cnt : (Sh1 50000).Idx → EReal)
    (w3 : (Sh 128 128).Idx → EReal) (b3 : (Sh1 128).Idx → EReal)
    (w4 : (Sh 128 64).Idx → EReal) (b4 : (Sh1 64).Idx → EReal) : (Sh 50000 64).Idx → EReal :=
  fun i => updRowCat (fun k => x (ix2 (r2 i) k))
    (meanRow (fun k => s (ix2 (r2 i) k)) (cnt (ix1 (r2 i))))
    (fun k h => w3 (ix2 k h)) (fun h => b3 (ix1 h))
    (fun h c => w4 (ix2 h c)) (fun c => b4 (ix1 c)) (c2 i)

end Cert.Mp

end
-- ==== Proof.Algebra.lean ====
/-
  The two algebraic laws of this certificate, over plain extended reals.

  Each network has a first layer that can be written either as several products, one for each part of its input row,
  or as one product of the joined row with the whole matrix. A sum over the joined index set is the sum of the sums
  over its parts (extended reals under addition form a commutative monoid, so nothing has to be finite for that).
  For the message network the parts are moreover recombined: the joined row holds `xj − xi` where the split form
  holds `xj`, and the split form makes up for it with the matrix `A − B`. That step is distributivity, which holds
  for real numbers but not at the infinities, so it is carried out on real entries only.
-/
import proofs.«107336_j16484084483096_2_alg».proof.Proof.Spec

noncomputable section

namespace Cert.Mp

/-! ## A sum over a joined index set is the sum over its parts -/

/-- A sum over 131 places, taken as 64 + 64 + 3. -/
theorem sum131 (f : Fin 131 → EReal) :
    ∑ k, f k = ((∑ k : Fin 64, f (lo131 k)) + (∑ k : Fin 64, f (mid131 k))) + (∑ k : Fin 3, f (hi131 k)) := by
  have h := Fin.sum_univ_add (M := EReal) (a := 64 + 64) (b := 3) f
  rw [Fin.sum_univ_add (M := EReal) (a := 64) (b := 64)] at h
  exact h

/-- A sum over 128 places, taken as 64 + 64. -/
theorem sum128 (f : Fin 128 → EReal) :
    ∑ k, f k = (∑ k : Fin 64, f (lo128 k)) + (∑ k : Fin 64, f (hi128 k)) :=
  Fin.sum_univ_add (M := EReal) (a := 64) (b := 64) f

/-! ## A joined row read at the places of its parts -/

theorem cat3_lo (a b : Fin 64 → EReal) (d : Fin 3 → EReal) (k : Fin 64) : cat3 a b d (lo131 k) = a k := by
  unfold cat3
  rw [dif_pos (show (lo131 k).val < 64 from k.isLt)]
  rfl

theorem cat3_mid (a b : Fin 64 → EReal) (d : Fin 3 → EReal) (k : Fin 64) : cat3 a b d (mid131 k) = b k := by
  have hk : k.val < 64 := k.isLt
  have h1 : ¬ ((mid131 k).val < 64) := by show ¬ (64 + k.val < 64); omega
  have h2 : (mid131 k).val < 128 := by show 64 + k.val < 128; omega
  unfold cat3
  rw [dif_neg h1, dif_pos h2]
  congr 1
  apply Fin.ext
  show 64 + k.val - 64 = k.val
  omega

theorem cat3_hi (a b : Fin 64 → EReal) (d : Fin 3 → EReal) (k : Fin 3) : cat3 a b d (hi131 k) = d k := by
  have hk : k.val < 3 := k.isLt
  have h1 : ¬ ((hi131 k).val < 64) := by show ¬ (128 + k.val < 64); omega
  have h2 : ¬ ((hi131 k).val < 128) := by show ¬ (128 + k.val < 128); omega
  unfold cat3
  rw [dif_neg h1, dif_neg h2]
  congr 1
  apply Fin.ext
  show 128 + k.val - 128 = k.val
  omega

theorem cat2_lo (a b : Fin 64 → EReal) (k : Fin 64) : cat2 a b (lo128 k) = a k := by
  unfold cat2
  rw [dif_pos (show (lo128 k).val < 64 from k.isLt)]
  rfl

theorem cat2_hi (a b : Fin 64 → EReal) (k : Fin 64) : cat2 a b (hi128 k) = b k := by
  have hk : k.val < 64 := k.isLt
  have h1 : ¬ ((hi128 k).val < 64) := by show ¬ (64 + k.val < 64); omega
  unfold cat2
  rw [dif_neg h1]
  congr 1
  apply Fin.ext
  show 64 + k.val - 64 = k.val
  omega

/-! ## The one step that uses distributivity -/

/-- For real numbers, `a (p − q) + b q = a p + (b − a) q`. -/
theorem real_regroup {a b p q : EReal} (ha : IsReal a) (hb : IsReal b) (hp : IsReal p) (hq : IsReal q) :
    a * (p - q) + b * q = a * p + (b - a) * q := by
  obtain ⟨a, rfl⟩ := ha
  obtain ⟨b, rfl⟩ := hb
  obtain ⟨p, rfl⟩ := hp
  obtain ⟨q, rfl⟩ := hq
  simp only [← EReal.coe_sub, ← EReal.coe_mul, ← EReal.coe_add]
  congr 1
  ring

/-! ## The hidden units -/

/-- A hidden unit of the message network: three products against `A − B`, `B`, `C`, or one against the whole matrix. -/
theorem msgHid_eq (xi xj : Fin 64 → EReal) (rp : Fin 3 → EReal) (w1 : Fin 131 → Fin 128 → EReal) (b1 : Fin 128 → EReal)
    (h : Fin 128) (hxi : ∀ k, IsReal (xi k)) (hxj : ∀ k, IsReal (xj k)) (hw1 : ∀ k h, IsReal (w1 k h)) :
    msgHidSplit xi xj rp (fun k h => w1 (lo131 k) h - w1 (mid131 k) h) (fun k h => w1 (mid131 k) h)
      (fun k h => w1 (hi131 k) h) b1 h
    = msgHidCat xi xj rp w1 b1 h := by
  have key : (∑ k, xi k * (w1 (lo131 k) h - w1 (mid131 k) h)) + (∑ k, xj k * w1 (mid131 k) h)
      = (∑ k, xi k * w1 (lo131 k) h) + (∑ k, (xj k - xi k) * w1 (mid131 k) h) := by
    rw [← Finset.sum_add_distrib, ← Finset.sum_add_distrib]
    exact Finset.sum_congr rfl (fun k _ => real_regroup (hxi k) (hxj k) (hw1 _ h) (hw1 _ h))
  unfold msgHidSplit msgHidCat
  rw [sum131 (fun k => cat3 xi (fun k => xj k - xi k) rp k * w1 k h)]
  simp only [cat3_lo, cat3_mid, cat3_hi]
  rw [key]

/-- A hidden unit of the node network: two products against the two halves, or one against the whole matrix. -/
theorem updHid_eq (x ag : Fin 64 → EReal) (w3 : Fin 128 → Fin 128 → EReal) (b3 : Fin 128 → EReal) (h : Fin 128) :
    updHidSplit x ag (fun k h => w3 (lo128 k) h) (fun k h => w3 (hi128 k) h) b3 h = updHidCat x ag w3 b3 h := by
  unfold updHidSplit updHidCat
  rw [sum128 (fun k => cat2 x ag k * w3 k h)]
  simp only [cat2_lo, cat2_hi]

/-! ## The two laws -/

/-- The message row computed with the first layer split in three products equals the one computed with the joined row
    `[xi, xj − xi, rp]` against the whole matrix, when the two feature rows and the matrix hold real numbers. -/
theorem msgRow_eq (xi xj : Fin 64 → EReal) (rp : Fin 3 → EReal) (w1 : Fin 131 → Fin 128 → EReal) (b1 : Fin 128 → EReal)
    (w2 : Fin 128 → Fin 64 → EReal) (b2 : Fin 64 → EReal) (c : Fin 64)
    (hxi : ∀ k, IsReal (xi k)) (hxj : ∀ k, IsReal (xj k)) (hw1 : ∀ k h, IsReal (w1 k h)) :
    msgRowSplit xi xj rp (fun k h => w1 (lo131 k) h - w1 (mid131 k) h) (fun k h => w1 (mid131 k) h)
      (fun k h => w1 (hi131 k) h) b1 w2 b2 c
    = msgRowCat xi xj rp w1 b1 w2 b2 c := by
  unfold msgRowSplit msgRowCat
  congr 1
  exact Finset.sum_congr rfl (fun h _ => by rw [msgHid_eq xi xj rp w1 b1 h hxi hxj hw1])

/-- The node row computed with the first layer split in two products equals the one computed with the joined row
    `[x, ag]` against the whole matrix (a regrouping of one sum: no finiteness is needed). -/
theorem updRow_eq (x ag : Fin 64 → EReal) (w3 : Fin 128 → Fin 128 → EReal) (b3 : Fin 128 → EReal)
    (w4 : Fin 128 → Fin 64 → EReal) (b4 : Fin 64 → EReal) (c : Fin 64) :
    updRowSplit x ag (fun k h => w3 (lo128 k) h) (fun k h => w3 (hi128 k) h) b3 w4 b4 c
    = updRowCat x ag w3 b3 w4 b4 c := by
  unfold updRowSplit updRowCat
  congr 1
  exact Finset.sum_congr rfl (fun h _ => by rw [updHid_eq x ag w3 b3 h])

end Cert.Mp

end
-- ==== Proof.Finite.lean ====
/-
  From the precondition to "every entry is a real number".

  The precondition compares, for each float input array, the absolute value of every entry with +∞ by a strict
  "less than", takes the conjunction of these bits over the whole array, and then the conjunction over the ten
  arrays; it says that the final bit is one. A conjunction of bits is one only if each of them is one, so every
  entry x of every array satisfies |x| < +∞. Among the extended reals that excludes both infinities (|±∞| = +∞,
  which is not below itself), and what is left is a real number.
-/
import proofs.«107336_j16484084483096_2_alg».proof.Defs
import proofs.«107336_j16484084483096_2_alg».proof.Proof.Gen.Pre_finite_inputs
import proofs.«107336_j16484084483096_2_alg».proof.Proof.Gen.KernelIdeal
import proofs.«107336_j16484084483096_2_alg».proof.Proof.Spec
import Idealize.ShloMosaic.Lib.ReduceAll

noncomputable section

open Idealize.ShloMosaic Idealize.ShloMosaic.TcCoe Idealize.SL.Sem Idealize.ShloMosaic.ValueIdx

namespace Cert.KernelIdeal.Val

open Cert.KernelIdeal Cert.Mp

/-- An extended real whose absolute value `max x (−x)` compares strictly below the word `0x7F800000` is a real
    number: that word denotes +∞, and the absolute value of either infinity is +∞ itself. -/
theorem isReal_of_abs_lt_inf (x : EReal)
    (h : Ideal.cmp .olt (max x (-x)) (Ideal.ofBits .f32 0x7F800000#32) = 1#1) : IsReal x := by
  -- the word: sign 0, exponent all ones, fraction 0, that is +∞
  have hinf : Ideal.ofBits .f32 0x7F800000#32 = (⊤ : EReal) := by simp [Ideal.ofBits, Ideal.ieee]
  rw [hinf] at h
  -- the comparison bit is one exactly when the strict inequality holds
  have hlt : max x (-x) < ⊤ := by
    by_contra hn
    have h0 : Ideal.cmp .olt (max x (-x)) ⊤ = 0#1 := by simp [Ideal.cmp, hn]
    rw [h0] at h
    exact absurd h (by decide)
  -- the three kinds of extended real: −∞ and +∞ have absolute value +∞, a real is a real
  induction x with
  | bot => simp at hlt
  | coe r => exact ⟨r, rfl⟩
  | top => simp at hlt

/-- Under the precondition every entry of the node features and of the first weight matrix is a real number. -/
theorem real_x_w1 (m : (ℓ : Loc nD τ sig) → Buf (Elt Ideal) ℓ) (hpre : Cert.Pre_KernelIdeal m) (c : Dev nD) :
    (∀ i, IsReal ((m ((c.tc : Thread nD τ).loc main_arg0) : (Sh 50000 64).Idx → EReal) i))
    ∧ (∀ i, IsReal ((m ((c.tc : Thread nD τ).loc main_arg3) : (Sh 131 128).Idx → EReal) i)) := by
  -- the result of the predicate has no axes, hence a single index
  haveI : Subsingleton Cert.Pre_finite_inputs.S_.Idx := ⟨fun a b => funext fun d => d.elim0⟩
  -- the final bit, read at that index, is one
  have h0 := congrFun (hpre c) ValueIdx.ix0
  -- The final bit is the conjunction, nested to the left, of the ten arrays' bits in the order of the arguments:
  -- (((((((((b0 ∧ b1) ∧ b3) ∧ b4) ∧ b5) ∧ b6) ∧ b7) ∧ b8) ∧ b9) ∧ b10). Seven times the left factor ...
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := (IntOp.andi_eq_one.1 h6).1
  -- ... leaves (b0 ∧ b1) ∧ b3: its right factor is the bit of the first weight matrix,
  obtain ⟨h8, hw⟩ := IntOp.andi_eq_one.1 h7
  -- and the left factor of its left factor is the bit of the node features.
  have hx := (IntOp.andi_eq_one.1 h8).1
  -- An array's bit is the conjunction over all its entries of "|entry| < +∞", so each entry has it.
  refine ⟨fun i => ?_, fun i => ?_⟩
  · exact isReal_of_abs_lt_inf _ (Host.reduce_andi_all _ _ _ _ _ hx i)
  · exact isReal_of_abs_lt_inf _ (Host.reduce_andi_all _ _ _ _ _ hw i)

end Cert.KernelIdeal.Val

end
-- ==== Proof.KernelRun.lean ====
/-
  The run of the two-kernel program with its result NAMED.

  The program is four segments in order: host operations, the message kernel over its 100 grid points, host operations
  (the two scatter-adds among them), the node kernel over its 10 grid points. The buffer contents at the four boundaries
  are a fold from the launch memory: host operations applied (`StableHlo.after`), and at a kernel's exit its arrays at
  what its write-backs leave (`withArrays`). `Gen.W4 m ρ c` is the last of them. Every weakly fair execution terminates
  with EVERY buffer that outlives the kernels at its `W4` contents (`run_all`); read at the result and at the eleven
  arguments this is `run_value`: the result is the node kernel's output array as its 10 write-backs leave it, and
  the arguments are as launched.
-/
import proofs.«107336_j16484084483096_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives the
    kernels at the contents the fold through the four segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result and at the arguments: the result ends at the last boundary's contents of its
    buffer, each argument as launched. -/
theorem run_value : θ_run defs (onTc (τ := τ) (main (F := F))) ⟨m, fun _ => 0, ρ⟩ (fun r => ∀ c : Dev nD,
      r.2.mem ((c.tc : Thread nD τ).loc main_v58) = W4 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v58 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)
    (run_all m ρ)

end Cert.KernelIdeal.Val

end
-- ==== Proof.Payload.lean ====
/-
  The arithmetic of the two kernel bodies, read one output entry at a time.

  Each body stores ONE value, a pure term of the blocks it loads. At the ideal values a float is an extended real,
  every pointwise vector operation is the exact operation entry by entry, and a rounding to a narrower format is the
  identity. So the stored block at row `r`, column `c` is a closed expression in the loaded blocks' entries:

  * a matrix product into a zero accumulator is the plain sum over the one contracted axis,
    `(L · W) (p, q) = ∑ k, L (p, k) * W (k, q)`;
  * a bias vector `[b]`, viewed as one row `[1, b]` and repeated down `a` rows, reads its entry `c` at every `(p, c)`;
  * a count column `[a, 1]` repeated across `b` columns reads its entry of row `p` at every `(p, c)`;
  * a cast of a block to its own shape changes nothing.

  Put together, the message body's entry `(r, c)` is the message row function of rows `r` of its three edge blocks
  (three products, a bias, a rectified linear unit, one more product, a bias), and the node body's entry `(r, c)` is the
  node row function of row `r` of the features and of the mean row: the summed messages of row `r` over the count of
  row `r` clamped below at one.
-/
import proofs.«107336_j16484084483096_2_alg».proof.Proof.Gen.KernelIdeal.Skeleton
import proofs.«107336_j16484084483096_2_alg».proof.Proof.Spec
import Idealize.ShloMosaic.PureOps.Ideal.Laws
import Idealize.ShloMosaic.Lib.Pipeline.Value
import Idealize.ShloMosaic.Lib.ValueLayout

noncomputable section

open Idealize.ShloMosaic Idealize.SL.Sem Idealize.ShloMosaic.ValueIdx

namespace Cert.KernelIdeal.Val

open Cert.KernelIdeal Cert.KernelIdeal.Gen Cert.Mp

/-! ## The operations that are not pointwise, read at an index -/

/-- A plain matrix product `[m, K] · [K, n]` into the zero accumulator, read at `(p, q)`, is `∑ k, L (p, k) * W (k, q)`.
    The dimension numbers enter only through four facts: the left operand is read at (row of the result, contraction
    position), the right operand at (contraction position, column of the result). The sum over the one-axis contraction
    index set is carried to the sum over `Fin K` along the bijection between the two. -/
theorem matmul_zero_ix2 {m n K : Nat} {φ₁ φ₂ : FTy}
    (D : DotDims (⟨2, ![m, K]⟩ : Shape) (⟨2, ![K, n]⟩ : Shape) (⟨2, ![m, n]⟩ : Shape))
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (l : FVec Ideal (⟨2, ![m, K]⟩ : Shape) φ₁) (w : FVec Ideal (⟨2, ![K, n]⟩ : Shape) φ₂) (p : Fin m) (q : Fin n) :
    (matmul D none l w (constant (F := Ideal) (⟨2, ![m, n]⟩ : Shape) .f32 0x00000000#32) :
      FVec Ideal (⟨2, ![m, n]⟩ : Shape) .f32) (ix2 p q) = ∑ k : Fin K, l (ix2 p k) * w (ix2 k q) := by
  refine (Ideal.matmul_constant_zero_apply D none l w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-! The five products of the two bodies. For each, the four coordinate facts: an axis that is not contracted reads the
    result's coordinate (by unfolding the index map at that axis), the contracted axis reads the contraction position. -/

/-- The message body's first layer over a 64-entry row: `[8000, 64] · [64, 128]`. -/
theorem matmul_msg_in_apply (l : FVec Ideal S8000x64 .bf16) (w : FVec Ideal S64x128 .bf16) (p : Fin 8000) (q : Fin 128) :
    (matmul dot_S8000x64_S64x128_S8000x128_1_0_0_1_n_n none l w (constant (F := Ideal) S8000x128 .f32 0x00000000#32) :
      FVec Ideal S8000x128 .f32) (ix2 p q) = ∑ k : Fin 64, l (ix2 p k) * w (ix2 k q) :=
  matmul_zero_ix2 dot_S8000x64_S64x128_S8000x128_1_0_0_1_n_n rfl rfl
    (fun i q => by
      unfold DotDims.lhsIdx
      rw [dif_neg (show ¬(0 : Fin S8000x64.rank) ∈ dot_S8000x64_S64x128_S8000x128_1_0_0_1_n_n.lhsBatch by decide),
        dif_pos (show (0 : Fin S8000x64.rank) ∈ dot_S8000x64_S64x128_S8000x128_1_0_0_1_n_n.lhsNonContracting by decide)]
      rfl)
    (fun i q => dot_S8000x64_S64x128_S8000x128_1_0_0_1_n_n.lhsIdx_val_of_single rfl i q)
    (fun i q => dot_S8000x64_S64x128_S8000x128_1_0_0_1_n_n.rhsIdx_val_of_single rfl i q)
    (fun i q => by
      unfold DotDims.rhsIdx
      rw [dif_neg (show ¬(1 : Fin S64x128.rank) ∈ dot_S8000x64_S64x128_S8000x128_1_0_0_1_n_n.rhsBatch by decide),
        dif_pos (show (1 : Fin S64x128.rank) ∈ dot_S8000x64_S64x128_S8000x128_1_0_0_1_n_n.rhsNonContracting by decide)]
      rfl)
    l w p q

/-- The message body's first layer over the 3-entry relative position: `[8000, 3] · [3, 128]`. -/
theorem matmul_msg_pos_apply (l : FVec Ideal S8000x3 .bf16) (w : FVec Ideal S3x128 .bf16) (p : Fin 8000) (q : Fin 128) :
    (matmul dot_S8000x3_S3x128_S8000x128_1_0_0_1_n_n none l w (constant (F := Ideal) S8000x128 .f32 0x00000000#32) :
      FVec Ideal S8000x128 .f32) (ix2 p q) = ∑ k : Fin 3, l (ix2 p k) * w (ix2 k q) :=
  matmul_zero_ix2 dot_S8000x3_S3x128_S8000x128_1_0_0_1_n_n rfl rfl
    (fun i q => by
      unfold DotDims.lhsIdx
      rw [dif_neg (show ¬(0 : Fin S8000x3.rank) ∈ dot_S8000x3_S3x128_S8000x128_1_0_0_1_n_n.lhsBatch by decide),
        dif_pos (show (0 : Fin S8000x3.rank) ∈ dot_S8000x3_S3x128_S8000x128_1_0_0_1_n_n.lhsNonContracting by decide)]
      rfl)
    (fun i q => dot_S8000x3_S3x128_S8000x128_1_0_0_1_n_n.lhsIdx_val_of_single rfl i q)
    (fun i q => dot_S8000x3_S3x128_S8000x128_1_0_0_1_n_n.rhsIdx_val_of_single rfl i q)
    (fun i q => by
      unfold DotDims.rhsIdx
      rw [dif_neg (show ¬(1 : Fin S3x128.rank) ∈ dot_S8000x3_S3x128_S8000x128_1_0_0_1_n_n.rhsBatch by decide),
        dif_pos (show (1 : Fin S3x128.rank) ∈ dot_S8000x3_S3x128_S8000x128_1_0_0_1_n_n.rhsNonContracting by decide)]
      rfl)
    l w p q

/-- The message body's second layer: `[8000, 128] · [128, 64]`. -/
theorem matmul_msg_out_apply (l : FVec Ideal S8000x128 .bf16) (w : FVec Ideal S128x64 .bf16) (p : Fin 8000) (q : Fin 64) :
    (matmul dot_S8000x128_S128x64_S8000x64_1_0_0_1_n_n none l w (constant (F := Ideal) S8000x64 .f32 0x00000000#32) :
      FVec Ideal S8000x64 .f32) (ix2 p q) = ∑ k : Fin 128, l (ix2 p k) * w (ix2 k q) :=
  matmul_zero_ix2 dot_S8000x128_S128x64_S8000x64_1_0_0_1_n_n rfl rfl
    (fun i q => by
      unfold DotDims.lhsIdx
      rw [dif_neg (show ¬(0 : Fin S8000x128.rank) ∈ dot_S8000x128_S128x64_S8000x64_1_0_0_1_n_n.lhsBatch by decide),
        dif_pos (show (0 : Fin S8000x128.rank) ∈ dot_S8000x128_S128x64_S8000x64_1_0_0_1_n_n.lhsNonContracting by decide)]
      rfl)
    (fun i q => dot_S8000x128_S128x64_S8000x64_1_0_0_1_n_n.lhsIdx_val_of_single rfl i q)
    (fun i q => dot_S8000x128_S128x64_S8000x64_1_0_0_1_n_n.rhsIdx_val_of_single rfl i q)
    (fun i q => by
      unfold DotDims.rhsIdx
      rw [dif_neg (show ¬(1 : Fin S128x64.rank) ∈ dot_S8000x128_S128x64_S8000x64_1_0_0_1_n_n.rhsBatch by decide),
        dif_pos (show (1 : Fin S128x64.rank) ∈ dot_S8000x128_S128x64_S8000x64_1_0_0_1_n_n.rhsNonContracting by decide)]
      rfl)
    l w p q

/-- The node body's first layer over a 64-entry row: `[5000, 64] · [64, 128]`. -/
theorem matmul_upd_in_apply (l : FVec Ideal S5000x64 .bf16) (w : FVec Ideal S64x128 .bf16) (p : Fin 5000) (q : Fin 128) :
    (matmul dot_S5000x64_S64x128_S5000x128_1_0_0_1_n_n none l w (constant (F := Ideal) S5000x128 .f32 0x00000000#32) :
      FVec Ideal S5000x128 .f32) (ix2 p q) = ∑ k : Fin 64, l (ix2 p k) * w (ix2 k q) :=
  matmul_zero_ix2 dot_S5000x64_S64x128_S5000x128_1_0_0_1_n_n rfl rfl
    (fun i q => by
      unfold DotDims.lhsIdx
      rw [dif_neg (show ¬(0 : Fin S5000x64.rank) ∈ dot_S5000x64_S64x128_S5000x128_1_0_0_1_n_n.lhsBatch by decide),
        dif_pos (show (0 : Fin S5000x64.rank) ∈ dot_S5000x64_S64x128_S5000x128_1_0_0_1_n_n.lhsNonContracting by decide)]
      rfl)
    (fun i q => dot_S5000x64_S64x128_S5000x128_1_0_0_1_n_n.lhsIdx_val_of_single rfl i q)
    (fun i q => dot_S5000x64_S64x128_S5000x128_1_0_0_1_n_n.rhsIdx_val_of_single rfl i q)
    (fun i q => by
      unfold DotDims.rhsIdx
      rw [dif_neg (show ¬(1 : Fin S64x128.rank) ∈ dot_S5000x64_S64x128_S5000x128_1_0_0_1_n_n.rhsBatch by decide),
        dif_pos (show (1 : Fin S64x128.rank) ∈ dot_S5000x64_S64x128_S5000x128_1_0_0_1_n_n.rhsNonContracting by decide)]
      rfl)
    l w p q

/-- The node body's second layer: `[5000, 128] · [128, 64]`. -/
theorem matmul_upd_out_apply (l : FVec Ideal S5000x128 .bf16) (w : FVec Ideal S128x64 .bf16) (p : Fin 5000) (q : Fin 64) :
    (matmul dot_S5000x128_S128x64_S5000x64_1_0_0_1_n_n none l w (constant (F := Ideal) S5000x64 .f32 0x00000000#32) :
      FVec Ideal S5000x64 .f32) (ix2 p q) = ∑ k : Fin 128, l (ix2 p k) * w (ix2 k q) :=
  matmul_zero_ix2 dot_S5000x128_S128x64_S5000x64_1_0_0_1_n_n rfl rfl
    (fun i q => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun i q => dot_S5000x128_S128x64_S5000x64_1_0_0_1_n_n.lhsIdx_val_of_single rfl i q)
    (fun i q => dot_S5000x128_S128x64_S5000x64_1_0_0_1_n_n.rhsIdx_val_of_single rfl i q)
    (fun i q => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    l w p q

/-! Two repetitions: a column across the columns, a row down the rows. -/

/-- A column `[a, 1]` repeated across `b` columns reads, at `(p, c)`, the column's entry of row `p`: on the column's unit
    axis the operand coordinate is `0`, on its row axis it is `p` (also when `a = 1`, where `p = 0`). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` viewed as the one row `[1, b]` and repeated down `a` rows reads, at `(p, c)`, the vector's entry `c`. -/
theorem bias_row_apply {α : Type} {a b : ℕ} (v : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ v h) h' (ix2 p c) = v (ix1 c) :=
  (broadcastTo_1b_ab_apply _ h' p c).trans (shapeCast_a_1a_apply v h 0 c)

/-! ## The two payloads at an index -/

/-- The message body at `(r, c)`. From the outside in: the sum of the second product and the output bias at `c`; the
    second product is `∑ h, hidden (r, h) * W₂ (h, c)`; the hidden entry is the larger of zero and the sum of the three
    first-layer products at `(r, h)` and the hidden bias at `h` (the rounding of the hidden block is the identity here);
    each first-layer product is a sum over its row's entries. The loaded blocks enter through casts to their own shapes. -/
theorem pay0_apply (x0 x1 : Vec Ideal S8000x64 .bf16) (x2 : Vec Ideal S8000x3 .bf16) (x3 x4 : Vec Ideal S64x128 .bf16)
    (x5 : Vec Ideal S3x128 .bf16) (x6 : Vec Ideal S128 .f32) (x7 : Vec Ideal S128x64 .bf16) (x8 : Vec Ideal S64 .f32)
    (r : Fin 8000) (c : Fin 64) :
    k0_pay1 (F := Ideal) x0 x1 x2 x3 x4 x5 x6 x7 x8 (ix2 r c) =
      msgRowSplit (fun k => x0 (ix2 r k)) (fun k => x1 (ix2 r k)) (fun k => x2 (ix2 r k))
        (fun k h => x3 (ix2 k h)) (fun k h => x4 (ix2 k h)) (fun k h => x5 (ix2 k h)) (fun h => x6 (ix1 h))
        (fun h c => x7 (ix2 h c)) (fun c => x8 (ix1 c)) c := by
  unfold k0_pay1 msgRowSplit
  refine (addf_apply _ _ _).trans (congrArg₂ (· + ·) ?_ (bias_row_apply x8 _ _ r c))
  refine (matmul_msg_out_apply _ _ r c).trans (Finset.sum_congr rfl fun h _ => ?_)
  refine congrArg₂ (· * ·) ?_ (congrFun (shapeCast_self x7 _) _)
  unfold msgHidSplit
  refine (truncf_apply (φ := .f32) (ψ := .bf16) _ Facts₀.bitsLt_bf16_f32 (ix2 r h)).trans
    ((maximumf_apply _ _ _).trans (congrArg₂ max ?_ rfl))
  refine (addf_apply _ _ _).trans (congrArg₂ (· + ·) ?_ (bias_row_apply x6 _ _ r h))
  refine (addf_apply _ _ _).trans (congrArg₂ (· + ·) ?_ ?_)
  · refine (addf_apply _ _ _).trans (congrArg₂ (· + ·) ?_ ?_)
    · refine (matmul_msg_in_apply _ _ r h).trans (Finset.sum_congr rfl fun k _ => ?_)
      exact congrArg₂ (· * ·) (congrFun (shapeCast_self x0 _) _) (congrFun (shapeCast_self x3 _) _)
    · refine (matmul_msg_in_apply _ _ r h).trans (Finset.sum_congr rfl fun k _ => ?_)
      exact congrArg₂ (· * ·) (congrFun (shapeCast_self x1 _) _) (congrFun (shapeCast_self x4 _) _)
  · refine (matmul_msg_pos_apply _ _ r h).trans (Finset.sum_congr rfl fun k _ => ?_)
    exact congrArg₂ (· * ·) (congrFun (shapeCast_self x2 _) _) (congrFun (shapeCast_self x5 _) _)

/-- The node body at `(r, c)`. The same outer steps with two first-layer products. The first is over the feature row
    (its rounding is the identity). The second is over the mean row: entry `k` is the summed message `(r, k)` divided
    by the count column repeated across the 64 columns, which at `(r, k)` is the larger of the count of row `r` and one. -/
theorem pay1_apply (x0 x1 : Vec Ideal S5000x64 .f32) (x2 : Vec Ideal S5000x1 .f32) (x3 x4 : Vec Ideal S64x128 .bf16)
    (x5 : Vec Ideal S128 .f32) (x6 : Vec Ideal S128x64 .bf16) (x7 : Vec Ideal S64 .f32)
    (r : Fin 5000) (c : Fin 64) :
    k1_pay1 (F := Ideal) x0 x1 x2 x3 x4 x5 x6 x7 (ix2 r c) =
      updRowSplit (fun k => x0 (ix2 r k)) (meanRow (fun k => x1 (ix2 r k)) (x2 (ix2 r (0 : Fin 1))))
        (fun k h => x3 (ix2 k h)) (fun k h => x4 (ix2 k h)) (fun h => x5 (ix1 h))
        (fun h c => x6 (ix2 h c)) (fun c => x7 (ix1 c)) c := by
  unfold k1_pay1 updRowSplit
  refine (addf_apply _ _ _).trans (congrArg₂ (· + ·) ?_ (bias_row_apply x7 _ _ r c))
  refine (matmul_upd_out_apply _ _ r c).trans (Finset.sum_congr rfl fun h _ => ?_)
  refine congrArg₂ (· * ·) ?_ (congrFun (shapeCast_self x6 _) _)
  unfold updHidSplit
  refine (truncf_apply (φ := .f32) (ψ := .bf16) _ Facts₀.bitsLt_bf16_f32 (ix2 r h)).trans
    ((maximumf_apply _ _ _).trans (congrArg₂ max ?_ rfl))
  refine (addf_apply _ _ _).trans (congrArg₂ (· + ·) ?_ (bias_row_apply x5 _ _ r h))
  refine (addf_apply _ _ _).trans (congrArg₂ (· + ·) ?_ ?_)
  · refine (matmul_upd_in_apply _ _ r h).trans (Finset.sum_congr rfl fun k _ => ?_)
    exact congrArg₂ (· * ·) rfl (congrFun (shapeCast_self x3 _) _)
  · refine (matmul_upd_in_apply _ _ r h).trans (Finset.sum_congr rfl fun k _ => ?_)
    refine congrArg₂ (· * ·) ?_ (congrFun (shapeCast_self x4 _) _)
    unfold meanRow
    refine (truncf_apply (φ := .f32) (ψ := .bf16) _ Facts₀.bitsLt_bf16_f32 (ix2 r k)).trans
      ((divf_apply _ _ _).trans (congrArg₂ Ideal.div (congrFun (shapeCast_self x1 _) _) ?_))
    refine (broadcastTo_a1_ab_apply _ _ r k).trans ((maximumf_apply _ _ _).trans (congrArg₂ max ?_ rfl))
    exact congrFun (shapeCast_self x2 _) _

end Cert.KernelIdeal.Val

end
-- ==== Proof.MsgArray.lean ====
/-
  From blocks to the array, for the message kernel.

  The kernel walks a grid of 100 points. At point `t` it is handed rows `8000·t … 8000·t + 7999` of the three edge
  arrays (source rows and target rows of 64 entries, relative positions of 3 entries) and, whole, the three first-layer
  matrices, the first bias, the second-layer matrix and the second bias. It computes one block of 8000 rows by 64
  columns and writes it back as rows `8000·t … 8000·t + 7999` of the output array.

  Entry `(r, c)` of the block computed at point `t` is the message row built from rows `r` of the three edge blocks,
  read at column `c`. Row `r` of an edge block at point `t` is row `8000·t + r` of the edge array, and the weights and
  biases are the same at every point. So entry `(8000·t + r, c)` of the output depends on row `8000·t + r` of each edge
  array and on nothing else of them: the block written at point `t` is the restriction, to its rows, of ONE function of
  the whole arrays — row `e` of the output is the message row of rows `e` of the edge arrays. The 100 row blocks tile
  the 800000 rows (row `e` lies in block `e / 8000`), so after the last write-back the output array is that function.
-/
import proofs.«107336_j16484084483096_2_alg».proof.Proof.Gen.KernelIdeal.Frame
import proofs.«107336_j16484084483096_2_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Gen Cert.Mp

variable (V : (c : Dev nD) → (b : Ref sig .tc) → Buf (Elt Ideal) ((c : Thread nD τ).loc b))

/-- The two spellings of "offset zero on both axes" and "offset zero on the one axis" agree. -/
theorem zero2 : (![0, 0] : Fin 2 → Nat) = fun _ => 0 := funext fun a => by fin_cases a <;> rfl
theorem zero1 : (![0] : Fin 1 → Nat) = fun _ => 0 := funext fun a => by fin_cases a <;> rfl

/-- Which block each window holds at grid point `t`: the three edge windows and the output window hold row block `t`
    (all columns); the weight and bias windows hold their only block at every point. Decided over the 100 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- A grid point is one of 100. -/
theorem point_lt (t : Fin cfg0.N) : t.val < 100 :=
  Nat.lt_of_lt_of_eq t.isLt N_0

/-! ## Each input block, entry by entry

An entry of a block sits in its array, on each axis, at the block's index times the block's extent plus the entry's own
coordinate. For the edge windows that is row `8000·t + r`, same column; for the whole-fetched windows it is the same
index. -/

/-- Row `r` of the source-row block at point `t` is row `8000·t + r` of the source-row array. -/
theorem blk0_entry (c : Dev nD) (t : Fin cfg0.N) (y : S8000x64.Idx) (i : S800000x64.Idx)
    (h0 : (i 0).val = 8000 * t.val + (y 0).val) (h1 : (i 1).val = (y 1).val) :
    (iblk0 (F := Ideal) V c 0 t : Vec Ideal S8000x64 .bf16) y = (V c main_v20 : S800000x64.Idx → Elt Ideal .bf16) i := by
  obtain ⟨e0, e1, -⟩ := block_index t
  unfold iblk0
  rw [View.read_apply]
  show V c main_v20 _ = V c main_v20 _
  congr 1
  funext a
  apply Fin.ext
  match a with
  | ⟨0, _⟩ => show win0_0.index t 0 * 8000 + 1 * (y 0).val = (i 0).val; rw [e0, h0]; omega
  | ⟨1, _⟩ => show win0_0.index t 1 * 64 + 1 * (y 1).val = (i 1).val; rw [e1, h1]; omega

/-- Row `r` of the target-row block at point `t` is row `8000·t + r` of the target-row array. -/
theorem blk1_entry (c : Dev nD) (t : Fin cfg0.N) (y : S8000x64.Idx) (i : S800000x64.Idx)
    (h0 : (i 0).val = 8000 * t.val + (y 0).val) (h1 : (i 1).val = (y 1).val) :
    (iblk0 (F := Ideal) V c 1 t : Vec Ideal S8000x64 .bf16) y = (V c main_v27 : S800000x64.Idx → Elt Ideal .bf16) i := by
  obtain ⟨-, -, e0, e1, -⟩ := block_index t
  unfold iblk0
  rw [View.read_apply]
  show V c main_v27 _ = V c main_v27 _
  congr 1
  funext a
  apply Fin.ext
  match a with
  | ⟨0, _⟩ => show win0_1.index t 0 * 8000 + 1 * (y 0).val = (i 0).val; rw [e0, h0]; omega
  | ⟨1, _⟩ => show win0_1.index t 1 * 64 + 1 * (y 1).val = (i 1).val; rw [e1, h1]; omega

/-- Row `r` of the relative-position block at point `t` is row `8000·t + r` of the relative-position array. -/
theorem blk2_entry (c : Dev nD) (t : Fin cfg0.N) (y : S8000x3.Idx) (i : S800000x3.Idx)
    (h0 : (i 0).val = 8000 * t.val + (y 0).val) (h1 : (i 1).val = (y 1).val) :
    (iblk0 (F := Ideal) V c 2 t : Vec Ideal S8000x3 .bf16) y = (V c main_v43 : S800000x3.Idx → Elt Ideal .bf16) i := by
  obtain ⟨-, -, -, -, e0, e1, -⟩ := block_index t
  unfold iblk0
  rw [View.read_apply]
  show V c main_v43 _ = V c main_v43 _
  congr 1
  funext a
  apply Fin.ext
  match a with
  | ⟨0, _⟩ => show win0_2.index t 0 * 8000 + 1 * (y 0).val = (i 0).val; rw [e0, h0]; omega
  | ⟨1, _⟩ => show win0_2.index t 1 * 3 + 1 * (y 1).val = (i 1).val; rw [e1, h1]; omega

/-- The first of the three first-layer matrices is handed over whole at every point. -/
theorem blk3_entry (c : Dev nD) (t : Fin cfg0.N) (y : S64x128.Idx) :
    (iblk0 (F := Ideal) V c 3 t : Vec Ideal S64x128 .bf16) y = (V c main_v7 : S64x128.Idx → Elt Ideal .bf16) y := by
  obtain ⟨-, -, -, -, -, -, e0, e1, -⟩ := block_index t
  unfold iblk0
  rw [View.read_apply]
  show V c main_v7 _ = V c main_v7 _
  congr 1
  funext a
  apply Fin.ext
  match a with
  | ⟨0, _⟩ => show win0_3.index t 0 * 64 + 1 * (y 0).val = (y 0).val; rw [e0]; omega
  | ⟨1, _⟩ => show win0_3.index t 1 * 128 + 1 * (y 1).val = (y 1).val; rw [e1]; omega

/-- So is the second first-layer matrix. -/
theorem blk4_entry (c : Dev nD) (t : Fin cfg0.N) (y : S64x128.Idx) :
    (iblk0 (F := Ideal) V c 4 t : Vec Ideal S64x128 .bf16) y = (V c main_v9 : S64x128.Idx → Elt Ideal .bf16) y := by
  obtain ⟨-, -, -, -, -, -, -, -, e0, e1, -⟩ := block_index t
  unfold iblk0
  rw [View.read_apply]
  show V c main_v9 _ = V c main_v9 _
  congr 1
  funext a
  apply Fin.ext
  match a with
  | ⟨0, _⟩ => show win0_4.index t 0 * 64 + 1 * (y 0).val = (y 0).val; rw [e0]; omega
  | ⟨1, _⟩ => show win0_4.index t 1 * 128 + 1 * (y 1).val = (y 1).val; rw [e1]; omega

/-- So is the third, of three rows. -/
theorem blk5_entry (c : Dev nD) (t : Fin cfg0.N) (y : S3x128.Idx) :
    (iblk0 (F := Ideal) V c 5 t : Vec Ideal S3x128 .bf16) y = (V c main_v11 : S3x128.Idx → Elt Ideal .bf16) y := by
  obtain ⟨-, -, -, -, -, -, -, -, -, -, e0, e1, -⟩ := block_index t
  unfold iblk0
  rw [View.read_apply]
  show V c main_v11 _ = V c main_v11 _
  congr 1
  funext a
  apply Fin.ext
  match a with
  | ⟨0, _⟩ => show win0_5.index t 0 * 3 + 1 * (y 0).val = (y 0).val; rw [e0]; omega
  | ⟨1, _⟩ => show win0_5.index t 1 * 128 + 1 * (y 1).val = (y 1).val; rw [e1]; omega

/-- So is the first bias. -/
theorem blk6_entry (c : Dev nD) (t : Fin cfg0.N) (y : S128.Idx) :
    (iblk0 (F := Ideal) V c 6 t : Vec Ideal S128 .f32) y = (V c main_arg4 : S128.Idx → Elt Ideal .f32) y := by
  obtain ⟨-, -, -, -, -, -, -, -, -, -, -, -, e0, -⟩ := block_index t
  unfold iblk0
  rw [View.read_apply]
  show V c main_arg4 _ = V c main_arg4 _
  congr 1
  funext a
  apply Fin.ext
  match a with
  | ⟨0, _⟩ => show win0_6.index t 0 * 128 + 1 * (y 0).val = (y 0).val; rw [e0]; omega

/-- So is the second-layer matrix. -/
theorem blk7_entry (c : Dev nD) (t : Fin cfg0.N) (y : S128x64.Idx) :
    (iblk0 (F := Ideal) V c 7 t : Vec Ideal S128x64 .bf16) y = (V c main_v12 : S128x64.Idx → Elt Ideal .bf16) y := by
  obtain ⟨-, -, -, -, -, -, -, -, -, -, -, -, -, e0, e1, -⟩ := block_index t
  unfold iblk0
  rw [View.read_apply]
  show V c main_v12 _ = V c main_v12 _
  congr 1
  funext a
  apply Fin.ext
  match a with
  | ⟨0, _⟩ => show win0_7.index t 0 * 128 + 1 * (y 0).val = (y 0).val; rw [e0]; omega
  | ⟨1, _⟩ => show win0_7.index t 1 * 64 + 1 * (y 1).val = (y 1).val; rw [e1]; omega

/-- So is the second bias. -/
theorem blk8_entry (c : Dev nD) (t : Fin cfg0.N) (y : S64.Idx) :
    (iblk0 (F := Ideal) V c 8 t : Vec Ideal S64 .f32) y = (V c main_arg6 : S64.Idx → Elt Ideal .f32) y := by
  obtain ⟨-, -, -, -, -, -, -, -, -, -, -, -, -, -, -, e0, -⟩ := block_index t
  unfold iblk0
  rw [View.read_apply]
  show V c main_arg6 _ = V c main_arg6 _
  congr 1
  funext a
  apply Fin.ext
  match a with
  | ⟨0, _⟩ => show win0_8.index t 0 * 64 + 1 * (y 0).val = (y 0).val; rw [e0]; omega

/-! ## One entry of the computed block -/

/-- Over plain blocks and arrays: if block entry `y` sits at array index `i` (row `8000·t +` its row, same column), row
    `y 0` of each edge block is row `r2 i` of its array, and the weights and biases are the arrays', then the computed
    block at `y` is the array function at `i`: both are the message row of the same nine rows, read at the same column. -/
theorem block_row (x0 x1 : Vec Ideal S8000x64 .bf16) (x2 : Vec Ideal S8000x3 .bf16) (x3 x4 : Vec Ideal S64x128 .bf16)
    (x5 : Vec Ideal S3x128 .bf16) (x6 : Vec Ideal S128 .f32) (x7 : Vec Ideal S128x64 .bf16) (x8 : Vec Ideal S64 .f32)
    (a0 a1 : (Sh 800000 64).Idx → EReal) (a2 : (Sh 800000 3).Idx → EReal)
    (a3 a4 : (Sh 64 128).Idx → EReal) (a5 : (Sh 3 128).Idx → EReal) (a6 : (Sh1 128).Idx → EReal)
    (a7 : (Sh 128 64).Idx → EReal) (a8 : (Sh1 64).Idx → EReal)
    (t : Nat) (y : S8000x64.Idx) (i : S800000x64.Idx)
    (hi0 : (i 0).val = 8000 * t + (y 0).val) (hi1 : (i 1).val = (y 1).val)
    (h0 : ∀ (k : Fin 64), x0 (ix2 (y 0) k) = a0 (ix2 (r2 i) k))
    (h1 : ∀ (k : Fin 64), x1 (ix2 (y 0) k) = a1 (ix2 (r2 i) k))
    (h2 : ∀ (k : Fin 3), x2 (ix2 (y 0) k) = a2 (ix2 (r2 i) k))
    (h3 : ∀ j, x3 j = a3 j) (h4 : ∀ j, x4 j = a4 j) (h5 : ∀ j, x5 j = a5 j) (h6 : ∀ j, x6 j = a6 j)
    (h7 : ∀ j, x7 j = a7 j) (h8 : ∀ j, x8 j = a8 j) :
    k0_pay1 (F := Ideal) x0 x1 x2 x3 x4 x5 x6 x7 x8 y = msgArrSplit a0 a1 a2 a3 a4 a5 a6 a7 a8 i := by
  have hc : c2 i = y 1 := Fin.ext hi1
  rw [eq_ix2 y]
  refine (pay0_apply x0 x1 x2 x3 x4 x5 x6 x7 x8 (y 0) (y 1)).trans ?_
  unfold msgArrSplit
  rw [hc]
  simp only [h0, h1, h2, h3, h4, h5, h6, h7, h8]

/-! ## What a point writes back, and where -/

/-- The block written back at point `t` is block `t` of the whole-array function: its entry `y` sits at row
    `8000·t + y 0`, column `y 1` of the output array, and there the two agree by `block_row`. -/
theorem flushed_eq (c : Dev nD) (t : Fin cfg0.N) :
    (dat0 (F := Ideal) V c).flushed 9 t = ((cfg0.win 9).blk t).view.read (Elt Ideal)
      (msgArrSplit (V c main_v20) (V c main_v27) (V c main_v43) (V c main_v7) (V c main_v9) (V c main_v11)
        (V c main_arg4) (V c main_v12) (V c main_arg6)) := by
  show (cfg0.win 9).cut (grid0.coords t) ((dat0 (F := Ideal) V c).after 9 t) = _
  rw [after0_9]
  unfold out0_9
  rw [View.canon_unit_zero zero2]
  simp only [View.ld_unit_zero (S := S8000x64) zero2, View.ld_unit_zero (S := S8000x3) zero2,
    View.ld_unit_zero (S := S64x128) zero2, View.ld_unit_zero (S := S3x128) zero2,
    View.ld_unit_zero (S := S128x64) zero2, View.ld_unit_zero (S := S128) zero1, View.ld_unit_zero (S := S64) zero1]
  obtain ⟨-, -, -, -, -, -, -, -, -, -, -, -, -, -, -, -, e0, e1⟩ := block_index t
  funext y
  have hi0 : ((((cfg0.win 9).blk t).view.emb y) 0).val = 8000 * t.val + (y 0).val := by
    show win0_9.index t 0 * 8000 + 1 * (y 0).val = _
    rw [e0]; omega
  have hi1 : ((((cfg0.win 9).blk t).view.emb y) 1).val = (y 1).val := by
    show win0_9.index t 1 * 64 + 1 * (y 1).val = _
    rw [e1]; omega
  exact block_row _ _ _ _ _ _ _ _ _ _ _ _ _ _ _ _ _ _ t.val y (((cfg0.win 9).blk t).view.emb y) hi0 hi1
    (fun k => blk0_entry V c t _ _ hi0 rfl)
    (fun k => blk1_entry V c t _ _ hi0 rfl)
    (fun k => blk2_entry V c t _ _ hi0 rfl)
    (blk3_entry V c t) (blk4_entry V c t) (blk5_entry V c t) (blk6_entry V c t) (blk7_entry V c t) (blk8_entry V c t)

/-- An index of the output array is in point `t`'s block iff each coordinate is in the block's range on its axis. -/
theorem mem_blk (t : Fin cfg0.N) (i : S800000x64.Idx) :
    i ∈ ((cfg0.win 9).blk t).view.set ↔ ∀ a : Fin 2, win0_9.index t a * S8000x64.size a ≤ (i a).val
      ∧ (i a).val < win0_9.index t a * S8000x64.size a + S8000x64.size a := by
  show i ∈ ((View.whole main_v44).slice (win0_9.rect t)).set ↔ _
  rw [View.set_slice_whole, Rect.mem_set_unit]
  exact Iff.rfl

/-- The row blocks tile the array: row `e` lies in block `e / 8000`, and a block spans all 64 columns. -/
theorem cover (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hq : (i 0).val / 8000 < cfg0.N := Nat.lt_of_lt_of_eq (by omega : (i 0).val / 8000 < 100) N_0.symm
  obtain ⟨-, -, -, -, -, -, -, -, -, -, -, -, -, -, -, -, e0, e1⟩ := block_index ⟨(i 0).val / 8000, hq⟩
  refine ⟨⟨(i 0).val / 8000, hq⟩, flush0_9 _, ?_⟩
  rw [mem_blk]
  intro a
  match a with
  | ⟨0, _⟩ =>
    show win0_9.index ⟨(i 0).val / 8000, hq⟩ (0 : Fin 2) * 8000 ≤ (i 0).val
      ∧ (i 0).val < win0_9.index ⟨(i 0).val / 8000, hq⟩ (0 : Fin 2) * 8000 + 8000
    rw [e0]
    show (i 0).val / 8000 * 8000 ≤ (i 0).val ∧ (i 0).val < (i 0).val / 8000 * 8000 + 8000
    omega
  | ⟨1, _⟩ =>
    show win0_9.index ⟨(i 0).val / 8000, hq⟩ (1 : Fin 2) * 64 ≤ (i 1).val
      ∧ (i 1).val < win0_9.index ⟨(i 0).val / 8000, hq⟩ (1 : Fin 2) * 64 + 64
    rw [e1]
    omega

/-- After the 100 write-backs the output array is the message array of the arrays the kernel was entered with. -/
theorem msg_array (V : (c : Dev nD) → (b : Ref sig .tc) → Buf (Elt Ideal) ((c : Thread nD τ).loc b)) (c : Dev nD) :
    (dat0 (F := Ideal) V c).arrAt 9 cfg0.N =
      msgArrSplit (V c main_v20) (V c main_v27) (V c main_v43) (V c main_v7) (V c main_v9) (V c main_v11)
        (V c main_arg4) (V c main_v12) (V c main_arg6) :=
  (dat0 (F := Ideal) V c).arrAt_eq_of_cover 9 _ (fun t _ => flushed_eq V c t) cover

end Cert.KernelIdeal.Val

end
-- ==== Proof.UpdArray.lean ====
/-
  From blocks to the array, for the node-update kernel.

  The kernel walks a grid of ten points. At point `t` it is handed rows `5000·t … 5000·t + 4999` of the feature array
  `[50000, 64]`, of the summed-message array `[50000, 64]` and of the count column `[50000, 1]`, together with the two
  first-layer matrices, the hidden bias, the second-layer matrix and the output bias, each of these five whole at every
  point; it leaves rows `5000·t … 5000·t + 4999` (all 64 columns) of the output array. The arithmetic of one output entry
  is the node row `updRowSplit` of the SAME row of the three row-blocked inputs: entry `(r, c)` of a block depends on row
  `r` of the block's features, row `r` of its summed messages, entry `r` of its counts, and on the weights.

  So every block the kernel writes back is the restriction of ONE function of the whole input arrays — `updArrSplit`,
  which reads row `R` of the output from row `R` of the inputs — to the block's rows; the ten blocks are disjoint runs of
  5000 rows that together fill the 50000 rows, the row `R` lying in block `R / 5000`. Hence the output array after the
  ten write-backs is `updArrSplit` of the arrays the kernel was entered with.
-/
import proofs.«107336_j16484084483096_2_alg».proof.Proof.Gen.KernelIdeal.Frame
import proofs.«107336_j16484084483096_2_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Gen Cert.Mp

namespace UpdBlocks

/-! ## Zero offsets, however spelt -/

theorem zeros2 : (![0, 0] : Fin 2 → Nat) = fun _ => 0 := funext fun a => by fin_cases a <;> rfl
theorem zeros1 : (![0] : Fin 1 → Nat) = fun _ => 0 := funext fun a => by fin_cases a; rfl

/-! ## Which block each window holds at a grid point -/

/-- At point `t` the three row-blocked inputs and the output hold block `(t, 0)`: row block `t`, the one column block.
    The five weight and bias windows hold block `0` on every axis, that is, their whole array. Decided over the ten points. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-! ## One entry of one block -/

/-- Blocks `x0 x1 x2` that are rows `5000·n + r` of arrays `A0 A1 A2`, and weights `x3 … x7` that are the arrays
    `A3 … A7` themselves: then entry `j` of the body's result is entry `i` of the whole-array node update, for the array
    index `i` that sits at row `5000·n + (row of j)` and at the column of `j`. Both sides are the node row of the same
    feature row, the same mean row and the same weights, read at the same column. -/
theorem block_entry (A0 A1 : S50000x64.Idx → EReal) (A2 : S50000x1.Idx → EReal) (A3 A4 : S64x128.Idx → EReal)
    (A5 : S128.Idx → EReal) (A6 : S128x64.Idx → EReal) (A7 : S64.Idx → EReal)
    (x0 x1 : Vec Ideal S5000x64 .f32) (x2 : Vec Ideal S5000x1 .f32) (x3 x4 : Vec Ideal S64x128 .bf16)
    (x5 : Vec Ideal S128 .f32) (x6 : Vec Ideal S128x64 .bf16) (x7 : Vec Ideal S64 .f32) (n : Nat)
    (h0 : ∀ (r : Fin 5000) (k : Fin 64) (R : Fin 50000), R.val = n * 5000 + r.val → x0 (ix2 r k) = A0 (ix2 R k))
    (h1 : ∀ (r : Fin 5000) (k : Fin 64) (R : Fin 50000), R.val = n * 5000 + r.val → x1 (ix2 r k) = A1 (ix2 R k))
    (h2 : ∀ (r : Fin 5000) (k : Fin 1) (R : Fin 50000), R.val = n * 5000 + r.val → x2 (ix2 r k) = A2 (ix2 R k))
    (h3 : x3 = A3) (h4 : x4 = A4) (h5 : x5 = A5) (h6 : x6 = A6) (h7 : x7 = A7)
    (j : S5000x64.Idx) (i : S50000x64.Idx) (hi0 : (i 0).val = n * 5000 + (j 0).val) (hi1 : (i 1).val = (j 1).val) :
    k1_pay1 (F := Ideal) x0 x1 x2 x3 x4 x5 x6 x7 j = updArrSplit A0 A1 A2 A3 A4 A5 A6 A7 i := by
  obtain ⟨r, q, rfl⟩ : ∃ (r : Fin 5000) (q : Fin 64), j = ix2 r q := ⟨j 0, j 1, eq_ix2 j⟩
  refine (pay1_apply x0 x1 x2 x3 x4 x5 x6 x7 r q).trans ?_
  subst h3 h4 h5 h6 h7
  -- the column of `i` is `q`, its row is `5000·n + r`
  have hq : c2 i = q := Fin.ext hi1
  have hr : (r2 i).val = n * 5000 + r.val := hi0
  show updRowSplit _ _ _ _ _ _ _ q = updRowSplit _ _ _ _ _ _ _ (c2 i)
  rw [hq]
  have e0 : (fun k => x0 (ix2 r k)) = fun k => A0 (ix2 (r2 i) k) := funext fun k => h0 r k (r2 i) hr
  have e1 : (fun k => x1 (ix2 r k)) = fun k => A1 (ix2 (r2 i) k) := funext fun k => h1 r k (r2 i) hr
  have e2 : x2 (ix2 r (0 : Fin 1)) = A2 (ix2 (r2 i) (0 : Fin 1)) := h2 r 0 (r2 i) hr
  rw [e0, e1, e2]

section Blocks

variable (V : (c : Dev nD) → (b : Ref sig .tc) → Buf (Elt Ideal) ((c : Thread nD τ).loc b))

/-! ## The input blocks as parts of their arrays

An entry of a block sits in its array, on each axis, at (block index) × (block extent) + (its coordinate in the block). -/

/-- Row `r` of the feature block at point `t` is row `5000·t + r` of the feature array. -/
theorem rows_x (c : Dev nD) (t : Fin cfg1.N) (r : Fin 5000) (k : Fin 64) (R : Fin 50000) (hR : R.val = t.val * 5000 + r.val) :
    (iblk1 (F := Ideal) V c 0 t : Vec Ideal S5000x64 .f32) (ix2 r k) = (V c main_arg0 : S50000x64.Idx → EReal) (ix2 R k) := by
  obtain ⟨a, a', -⟩ := block_index t
  show V c main_arg0 (((cfg1.win 0).blk t).view.emb (ix2 r k)) = V c main_arg0 (ix2 R k)
  refine congrArg _ (funext fun d => Fin.ext ?_)
  match d with
  | ⟨0, _⟩ => show win1_0.index t (0 : Fin 2) * 5000 + 1 * r.val = R.val; rw [a, hR]; omega
  | ⟨1, _⟩ => show win1_0.index t (1 : Fin 2) * 64 + 1 * k.val = k.val; rw [a']; omega

/-- Row `r` of the summed-message block at point `t` is row `5000·t + r` of the summed-message array. -/
theorem rows_s (c : Dev nD) (t : Fin cfg1.N) (r : Fin 5000) (k : Fin 64) (R : Fin 50000) (hR : R.val = t.val * 5000 + r.val) :
    (iblk1 (F := Ideal) V c 1 t : Vec Ideal S5000x64 .f32) (ix2 r k) = (V c main_v47 : S50000x64.Idx → EReal) (ix2 R k) := by
  obtain ⟨-, -, a, a', -⟩ := block_index t
  show V c main_v47 (((cfg1.win 1).blk t).view.emb (ix2 r k)) = V c main_v47 (ix2 R k)
  refine congrArg _ (funext fun d => Fin.ext ?_)
  match d with
  | ⟨0, _⟩ => show win1_1.index t (0 : Fin 2) * 5000 + 1 * r.val = R.val; rw [a, hR]; omega
  | ⟨1, _⟩ => show win1_1.index t (1 : Fin 2) * 64 + 1 * k.val = k.val; rw [a']; omega

/-- Entry `r` of the count block at point `t` is entry `5000·t + r` of the count column. -/
theorem rows_cnt (c : Dev nD) (t : Fin cfg1.N) (r : Fin 5000) (k : Fin 1) (R : Fin 50000) (hR : R.val = t.val * 5000 + r.val) :
    (iblk1 (F := Ideal) V c 2 t : Vec Ideal S5000x1 .f32) (ix2 r k) = (V c main_v52 : S50000x1.Idx → EReal) (ix2 R k) := by
  obtain ⟨-, -, -, -, a, a', -⟩ := block_index t
  show V c main_v52 (((cfg1.win 2).blk t).view.emb (ix2 r k)) = V c main_v52 (ix2 R k)
  refine congrArg _ (funext fun d => Fin.ext ?_)
  match d with
  | ⟨0, _⟩ => show win1_2.index t (0 : Fin 2) * 5000 + 1 * r.val = R.val; rw [a, hR]; omega
  | ⟨1, _⟩ => show win1_2.index t (1 : Fin 2) * 1 + 1 * k.val = k.val; rw [a']; omega

/-- The feature half of the first-layer matrix is fetched whole at every point. -/
theorem whole_w3x (c : Dev nD) (t : Fin cfg1.N) :
    (iblk1 (F := Ideal) V c 3 t : Vec Ideal S64x128 .bf16) = (V c main_v54 : S64x128.Idx → EReal) := by
  obtain ⟨-, -, -, -, -, -, a, a', -⟩ := block_index t
  funext y
  show V c main_v54 (((cfg1.win 3).blk t).view.emb y) = V c main_v54 y
  refine congrArg _ (funext fun d => Fin.ext ?_)
  match d with
  | ⟨0, _⟩ => show win1_3.index t (0 : Fin 2) * 64 + 1 * (y 0).val = (y 0).val; rw [a]; omega
  | ⟨1, _⟩ => show win1_3.index t (1 : Fin 2) * 128 + 1 * (y 1).val = (y 1).val; rw [a']; omega

/-- The mean half of the first-layer matrix is fetched whole at every point. -/
theorem whole_w3a (c : Dev nD) (t : Fin cfg1.N) :
    (iblk1 (F := Ideal) V c 4 t : Vec Ideal S64x128 .bf16) = (V c main_v56 : S64x128.Idx → EReal) := by
  obtain ⟨-, -, -, -, -, -, -, -, a, a', -⟩ := block_index t
  funext y
  show V c main_v56 (((cfg1.win 4).blk t).view.emb y) = V c main_v56 y
  refine congrArg _ (funext fun d => Fin.ext ?_)
  match d with
  | ⟨0, _⟩ => show win1_4.index t (0 : Fin 2) * 64 + 1 * (y 0).val = (y 0).val; rw [a]; omega
  | ⟨1, _⟩ => show win1_4.index t (1 : Fin 2) * 128 + 1 * (y 1).val = (y 1).val; rw [a']; omega

/-- The hidden bias is fetched whole at every point. -/
theorem whole_b3 (c : Dev nD) (t : Fin cfg1.N) :
    (iblk1 (F := Ideal) V c 5 t : Vec Ideal S128 .f32) = (V c main_arg8 : S128.Idx → EReal) := by
  obtain ⟨-, -, -, -, -, -, -, -, -, -, a, -⟩ := block_index t
  funext y
  show V c main_arg8 (((cfg1.win 5).blk t).view.emb y) = V c main_arg8 y
  refine congrArg _ (funext fun d => Fin.ext ?_)
  match d with
  | ⟨0, _⟩ => show win1_5.index t (0 : Fin 1) * 128 + 1 * (y 0).val = (y 0).val; rw [a]; omega

/-- The second-layer matrix is fetched whole at every point. -/
theorem whole_w4 (c : Dev nD) (t : Fin cfg1.N) :
    (iblk1 (F := Ideal) V c 6 t : Vec Ideal S128x64 .bf16) = (V c main_v57 : S128x64.Idx → EReal) := by
  obtain ⟨-, -, -, -, -, -, -, -, -, -, -, a, a', -⟩ := block_index t
  funext y
  show V c main_v57 (((cfg1.win 6).blk t).view.emb y) = V c main_v57 y
  refine congrArg _ (funext fun d => Fin.ext ?_)
  match d with
  | ⟨0, _⟩ => show win1_6.index t (0 : Fin 2) * 128 + 1 * (y 0).val = (y 0).val; rw [a]; omega
  | ⟨1, _⟩ => show win1_6.index t (1 : Fin 2) * 64 + 1 * (y 1).val = (y 1).val; rw [a']; omega

/-- The output bias is fetched whole at every point. -/
theorem whole_b4 (c : Dev nD) (t : Fin cfg1.N) :
    (iblk1 (F := Ideal) V c 7 t : Vec Ideal S64 .f32) = (V c main_arg10 : S64.Idx → EReal) := by
  obtain ⟨-, -, -, -, -, -, -, -, -, -, -, -, -, a, -⟩ := block_index t
  funext y
  show V c main_arg10 (((cfg1.win 7).blk t).view.emb y) = V c main_arg10 y
  refine congrArg _ (funext fun d => Fin.ext ?_)
  match d with
  | ⟨0, _⟩ => show win1_7.index t (0 : Fin 1) * 64 + 1 * (y 0).val = (y 0).val; rw [a]; omega

/-! ## What a point writes back -/

/-- What point `t` writes back is block `t` — rows `5000·t … 5000·t + 4999` — of the whole-array node update of the arrays
    the kernel was entered with: the body's one store fills the staging buffer with its result, whose entry `(r, c)` is,
    by `block_entry`, the update's entry `(5000·t + r, c)`. -/
theorem flushed_eq (c : Dev nD) (t : Fin cfg1.N) :
    (dat1 (F := Ideal) V c).flushed 8 t = ((cfg1.win 8).blk t).view.read (Elt Ideal)
      (updArrSplit (V c main_arg0) (V c main_v47) (V c main_v52) (V c main_v54) (V c main_v56)
        (V c main_arg8) (V c main_v57) (V c main_arg10)) := by
  show (cfg1.win 8).cut (grid1.coords t) ((dat1 V c).after 8 t) = _
  rw [after1_8]
  unfold Gen.out1_8
  rw [View.canon_unit_zero zeros2]
  simp only [View.ld_unit_zero (S := S5000x64) zeros2, View.ld_unit_zero (S := S5000x1) zeros2,
    View.ld_unit_zero (S := S64x128) zeros2, View.ld_unit_zero (S := S128x64) zeros2,
    View.ld_unit_zero (S := S128) zeros1, View.ld_unit_zero (S := S64) zeros1]
  have a8 := (block_index t).2.2.2.2.2.2.2.2.2.2.2.2.2.2
  funext y
  show k1_pay1 (F := Ideal) _ _ _ _ _ _ _ _ ((win1 8).xinj (grid1.coords t) y)
    = updArrSplit _ _ _ _ _ _ _ _ (((cfg1.win 8).blk t).view.emb y)
  refine block_entry _ _ _ _ _ _ _ _ _ _ _ _ _ _ _ _ t.val (rows_x V c t) (rows_s V c t) (rows_cnt V c t)
    (whole_w3x V c t) (whole_w3a V c t) (whole_b3 V c t) (whole_w4 V c t) (whole_b4 V c t) _ _ ?_ ?_
  · show win1_8.index t (0 : Fin 2) * 5000 + 1 * (y 0).val = t.val * 5000 + (y 0).val
    rw [a8.1]; omega
  · show win1_8.index t (1 : Fin 2) * 64 + 1 * (y 1).val = (y 1).val
    rw [a8.2]; omega

end Blocks

/-! ## The ten blocks fill the array -/

/-- An index of the output array is in point `t`'s block iff each coordinate is in the block's range on its axis. -/
theorem mem_block (t : Fin cfg1.N) (i : S50000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v58).slice (win1_8.rect t)).set ↔ _
  rw [View.set_slice_whole, Rect.mem_set_unit]
  exact Iff.rfl

/-- Row `R` of the output array is written back at point `R / 5000` (and every point writes back). -/
theorem covered (i : S50000x64.Idx) :
    ∃ t : Fin cfg1.N, (cfg1.win 8).flush t = true ∧ i ∈ ((cfg1.win 8).blk t).view.set := by
  have hN : grid1.N = 10 := Gen.N_1
  have hi0 : (i 0).val < 50000 := (i 0).isLt
  have hi1 : (i 1).val < 64 := (i 1).isLt
  let t : Fin cfg1.N := ⟨(i 0).val / 5000, by show (i 0).val / 5000 < grid1.N; rw [hN]; omega⟩
  have a8 := (block_index t).2.2.2.2.2.2.2.2.2.2.2.2.2.2
  have ht : t.val = (i 0).val / 5000 := rfl
  refine ⟨t, flush1_8 t, ?_⟩
  rw [mem_block]
  intro a
  match a with
  | ⟨0, _⟩ => show win1_8.index t (0 : Fin 2) * 5000 ≤ (i 0).val ∧ (i 0).val < win1_8.index t (0 : Fin 2) * 5000 + 5000; rw [a8.1, ht]; omega
  | ⟨1, _⟩ => show win1_8.index t (1 : Fin 2) * 64 ≤ (i 1).val ∧ (i 1).val < win1_8.index t (1 : Fin 2) * 64 + 64; rw [a8.2]; omega

end UpdBlocks

open UpdBlocks

/-! ## The output array after the run -/

/-- Every write-back is its block of the one whole-array node update, and the blocks fill the array: after the ten
    write-backs the output array IS that update of the arrays the kernel was entered with. -/
theorem upd_array (V : (c : Dev nD) → (b : Ref sig .tc) → Buf (Elt Ideal) ((c : Thread nD τ).loc b)) (c : Dev nD) :
    (dat1 (F := Ideal) V c).arrAt 8 cfg1.N =
      updArrSplit (V c main_arg0) (V c main_v47) (V c main_v52) (V c main_v54) (V c main_v56)
        (V c main_arg8) (V c main_v57) (V c main_arg10) :=
  (dat1 (F := Ideal) V c).arrAt_eq_of_cover 8 _ (fun t _ => flushed_eq V c t) covered

end Cert.KernelIdeal.Val

end
-- ==== Proof.Entry0.lean ====
import proofs.«107336_j16484084483096_2_alg».proof.Proof.Gen.KernelIdeal.Frame
import proofs.«107336_j16484084483096_2_alg».proof.Proof.Gen.ReferenceIdeal.Read
import proofs.«107336_j16484084483096_2_alg».proof.Proof.Spec
import Idealize.ShloMosaic.Lib.StableHlo.Run
import Idealize.ShloMosaic.Lib.Pipeline.Value
import Idealize.ShloMosaic.Lib.ValueIdx
/-!
# What the message kernel is entered with

The program runs a first stretch of host operations on its argument arrays before the message kernel starts. This
module reads the buffers that kernel takes back as functions of the arguments, over extended reals, where a change of
float format is the identity.

* The first-layer matrix `W1` has 131 rows: rows 0–63 multiply the source features, rows 64–127 the feature
  difference, rows 128–130 the relative position. The program slices it into three blocks and hands the kernel
  `rows 0–63 − rows 64–127` (entry `(k, h)` is `W1 (k, h) − W1 (64 + k, h)`), `rows 64–127` and `rows 128–130`.
* The second-layer matrix and the two bias vectors are handed over as they are.
* The three edge arrays — the source rows, the target rows and the relative positions — are gathers of the node
  arrays at the edge list's indices, each index first normalised (a negative one is moved up by the number of nodes).
  The reference program applies the very same operations to the same arguments, so these three are the reference's
  own intermediate values.
-/

noncomputable section

open Idealize.ShloMosaic Idealize.ShloMosaic.TcCoe Idealize.SL.Sem Idealize.ShloMosaic.ValueIdx

namespace Cert.KernelIdeal.Val

open Cert.KernelIdeal Cert.KernelIdeal.Gen Cert.Mp

section
variable (m : (ℓ : Loc nD τ sig) → Buf (Elt Ideal) ℓ) (ρ : Dev nD → PrngReg) (c : Dev nD)

/-! What the message kernel is entered with: the contents after the first stretch of host operations -/

/-! ### The three edge arrays

Row `e` of each is a row of a node array, picked by the edge list. The edge list is a `2 × 800000` array of integers;
its row 0 and its row 1 are each cut out, flattened to a vector, and every entry `n` that is negative is replaced by
`n + 50000` (a comparison with zero, an addition, a choice between the two), then the vector is stood up as a column
to serve as gather indices. The reference program performs these same steps on the same argument, so once both
sides are written out in the primitive operations they are the same term; the only difference, a change of float
format on the node features (before the gather) or on the position difference (after the subtraction), is the
identity on extended reals. -/

/-- The source rows: the node features gathered at the normalised entries of the edge list's row 0. -/
theorem entry0_xi : V1 (F := Ideal) m ρ c main_v20 = Cert.ReferenceIdeal.Read.val_main_v10 (F := Ideal) (m ((c.tc : Thread nD τ).loc main_arg0)) (m ((c.tc : Thread nD τ).loc main_arg2)) := by
  show StableHlo.after hostOps0 (W0 m ρ c) (Proc.devRef .tc main_v20) = _
  after_results_simp
  unfold Cert.ReferenceIdeal.Read.val_main_v10
    Cert.ReferenceIdeal.Read.val_main_v9
    Cert.ReferenceIdeal.Read.val_main_v8
    Cert.ReferenceIdeal.Read.val_main_v7
    Cert.ReferenceIdeal.Read.val_main_v6
    Cert.ReferenceIdeal.Read.val_main_v5
    Cert.ReferenceIdeal.Read.val_main_v4
    Cert.ReferenceIdeal.Read.val_main_v1
    Cert.ReferenceIdeal.Read.val_main_v0
    Cert.ReferenceIdeal.Read.val_main_c
    Cert.ReferenceIdeal.Read.val_main_c_0
  rfl

/-- The target rows: the node features gathered at the normalised entries of the edge list's row 1. -/
theorem entry0_xj : V1 (F := Ideal) m ρ c main_v27 = Cert.ReferenceIdeal.Read.val_main_v17 (F := Ideal) (m ((c.tc : Thread nD τ).loc main_arg0)) (m ((c.tc : Thread nD τ).loc main_arg2)) := by
  show StableHlo.after hostOps0 (W0 m ρ c) (Proc.devRef .tc main_v27) = _
  after_results_simp
  unfold Cert.ReferenceIdeal.Read.val_main_v17
    Cert.ReferenceIdeal.Read.val_main_v16
    Cert.ReferenceIdeal.Read.val_main_v15
    Cert.ReferenceIdeal.Read.val_main_v14
    Cert.ReferenceIdeal.Read.val_main_v13
    Cert.ReferenceIdeal.Read.val_main_v12
    Cert.ReferenceIdeal.Read.val_main_v11
    Cert.ReferenceIdeal.Read.val_main_v3
    Cert.ReferenceIdeal.Read.val_main_v2
    Cert.ReferenceIdeal.Read.val_main_c_1
    Cert.ReferenceIdeal.Read.val_main_c_2
  rfl

/-- The relative positions: the node positions gathered at the target index minus those gathered at the source
    index, entry by entry. -/
theorem entry0_rp : V1 (F := Ideal) m ρ c main_v43 = Cert.ReferenceIdeal.Read.val_main_v32 (F := Ideal) (m ((c.tc : Thread nD τ).loc main_arg1)) (m ((c.tc : Thread nD τ).loc main_arg2)) := by
  show StableHlo.after hostOps0 (W0 m ρ c) (Proc.devRef .tc main_v43) = _
  after_results_simp
  unfold Cert.ReferenceIdeal.Read.val_main_v32
    Cert.ReferenceIdeal.Read.val_main_v31
    Cert.ReferenceIdeal.Read.val_main_v30
    Cert.ReferenceIdeal.Read.val_main_v29
    Cert.ReferenceIdeal.Read.val_main_v28
    Cert.ReferenceIdeal.Read.val_main_v27
    Cert.ReferenceIdeal.Read.val_main_v26
    Cert.ReferenceIdeal.Read.val_main_v25
    Cert.ReferenceIdeal.Read.val_main_v24
    Cert.ReferenceIdeal.Read.val_main_v23
    Cert.ReferenceIdeal.Read.val_main_v22
    Cert.ReferenceIdeal.Read.val_main_v21
    Cert.ReferenceIdeal.Read.val_main_v20
    Cert.ReferenceIdeal.Read.val_main_v19
    Cert.ReferenceIdeal.Read.val_main_v18
    Cert.ReferenceIdeal.Read.val_main_v3
    Cert.ReferenceIdeal.Read.val_main_v2
    Cert.ReferenceIdeal.Read.val_main_v1
    Cert.ReferenceIdeal.Read.val_main_v0
    Cert.ReferenceIdeal.Read.val_main_c_3
    Cert.ReferenceIdeal.Read.val_main_c_4
    Cert.ReferenceIdeal.Read.val_main_c_5
    Cert.ReferenceIdeal.Read.val_main_c_6
  rfl

/-! ### The three blocks of the first-layer matrix

A slice with offsets `(r, 0)` read at `(k, h)` is the matrix at `(r + k, h)`: one linear equation per axis. -/

/-- Rows 0–63 minus rows 64–127: entry `(k, h)` is `W1 (k, h) − W1 (64 + k, h)`. -/
theorem entry0_wab (k : Fin 64) (h : Fin 128) :
    (V1 (F := Ideal) m ρ c main_v7 : (Sh 64 128).Idx → EReal) (ix2 k h)
      = @HSub.hSub EReal EReal EReal _ (((m ((c.tc : Thread nD τ).loc main_arg3)) : (Sh 131 128).Idx → EReal) (ix2 (lo131 k) h)) (((m ((c.tc : Thread nD τ).loc main_arg3)) : (Sh 131 128).Idx → EReal) (ix2 (mid131 k) h)) := by
  show (StableHlo.after hostOps0 (W0 m ρ c) (Proc.devRef .tc main_v7) : S64x128.Idx → EReal) (ix2 k h) = _
  after_results_simp
  -- the difference of the two slices at `(k, h)`: each slice read at its own shifted row
  exact congrArg₂ (fun a b : EReal => a - b)
    (extractStridedSlice_apply ![0, 0] _ slices_S131x128_S64x128_0_0 (ix2 k h) (ix2 (lo131 k) h) (fun a => match a with
      | ⟨0, _⟩ => by show k.val = 0 + k.val; omega
      | ⟨1, _⟩ => by show h.val = 0 + h.val; omega))
    (extractStridedSlice_apply ![64, 0] _ slices_S131x128_S64x128_64_0 (ix2 k h) (ix2 (mid131 k) h) (fun a => match a with
      | ⟨0, _⟩ => by show (mid131 k).val = 64 + k.val; rfl
      | ⟨1, _⟩ => by show h.val = 0 + h.val; omega))

/-- Rows 64–127: entry `(k, h)` is `W1 (64 + k, h)`. -/
theorem entry0_wb (k : Fin 64) (h : Fin 128) :
    (V1 (F := Ideal) m ρ c main_v9 : (Sh 64 128).Idx → EReal) (ix2 k h) = ((m ((c.tc : Thread nD τ).loc main_arg3)) : (Sh 131 128).Idx → EReal) (ix2 (mid131 k) h) := by
  show (StableHlo.after hostOps0 (W0 m ρ c) (Proc.devRef .tc main_v9) : S64x128.Idx → EReal) (ix2 k h) = _
  after_results_simp
  exact extractStridedSlice_apply ![64, 0] _ slices_S131x128_S64x128_64_0 (ix2 k h) (ix2 (mid131 k) h) (fun a => match a with
    | ⟨0, _⟩ => by show (mid131 k).val = 64 + k.val; rfl
    | ⟨1, _⟩ => by show h.val = 0 + h.val; omega)

/-- Rows 128–130: entry `(k, h)` is `W1 (128 + k, h)`. -/
theorem entry0_wc (k : Fin 3) (h : Fin 128) :
    (V1 (F := Ideal) m ρ c main_v11 : (Sh 3 128).Idx → EReal) (ix2 k h) = ((m ((c.tc : Thread nD τ).loc main_arg3)) : (Sh 131 128).Idx → EReal) (ix2 (hi131 k) h) := by
  show (StableHlo.after hostOps0 (W0 m ρ c) (Proc.devRef .tc main_v11) : S3x128.Idx → EReal) (ix2 k h) = _
  after_results_simp
  exact extractStridedSlice_apply ![128, 0] _ slices_S131x128_S3x128_128_0 (ix2 k h) (ix2 (hi131 k) h) (fun a => match a with
    | ⟨0, _⟩ => by show (hi131 k).val = 128 + k.val; rfl
    | ⟨1, _⟩ => by show h.val = 0 + h.val; omega)

/-! ### What is handed over unchanged

No operation of the stretch writes a bias vector, so each is still the argument; the second-layer matrix only
changes float format, which is the identity here. -/

/-- The first-layer bias is the argument itself. -/
theorem entry0_b1 : V1 (F := Ideal) m ρ c main_arg4 = (m ((c.tc : Thread nD τ).loc main_arg4)) := by
  show StableHlo.after hostOps0 (W0 m ρ c) (Proc.devRef .tc main_arg4) = _
  after_results_simp

/-- The second-layer matrix is the argument itself. -/
theorem entry0_w2 : V1 (F := Ideal) m ρ c main_v12 = (m ((c.tc : Thread nD τ).loc main_arg5)) := by
  show StableHlo.after hostOps0 (W0 m ρ c) (Proc.devRef .tc main_v12) = _
  after_results_simp
  rfl

/-- The second-layer bias is the argument itself. -/
theorem entry0_b2 : V1 (F := Ideal) m ρ c main_arg6 = (m ((c.tc : Thread nD τ).loc main_arg6)) := by
  show StableHlo.after hostOps0 (W0 m ρ c) (Proc.devRef .tc main_arg6) = _
  after_results_simp

end

end Cert.KernelIdeal.Val

end
-- ==== Proof.Entry1.lean ====
import proofs.«107336_j16484084483096_2_alg».proof.Proof.Gen.KernelIdeal.Frame
import proofs.«107336_j16484084483096_2_alg».proof.Proof.Gen.ReferenceIdeal.Read
import proofs.«107336_j16484084483096_2_alg».proof.Proof.Spec
import Idealize.ShloMosaic.Lib.StableHlo.Run
import Idealize.ShloMosaic.Lib.Pipeline.Value
import Idealize.ShloMosaic.Lib.ValueIdx

/-!
# What the node kernel is entered with

The program runs a first stretch of host operations, the message kernel, a second stretch of host operations, and the node
kernel. This module reads the buffers the node kernel's windows look at, as they stand after the second stretch, back as
functions of the program's argument arrays (floats are extended reals here, and a change of float format is the identity):

* the feature array `x` and the two biases of the node network are argument arrays nobody writes: they are the launched ones;
* the summed messages are the scatter-add, into a `[50000, 64]` array of zeros, of the message kernel's output array at
  the source index of every edge (row 0 of the edge list as a column): the reference's scatter-add with the message array
  replaced by what the message kernel left;
* the counts are the scatter-add of 800000 ones into 50000 zeros at the same indices, laid out as a column `[50000, 1]`:
  its entry `(n, 0)` is the reference's count of node `n`;
* the two halves of the node network's first matrix are rows 0–63 and rows 64–127 of the launched `[128, 128]` matrix;
* the node network's second matrix is the launched one.

Each reading unfolds the second stretch at the buffer in question, walks an operand that stretch does not write back through
the message kernel (which changes only its own windows' arrays) and through the first stretch to the launch memory, and then
reads slices and broadcasts at an index.
-/

noncomputable section

open Idealize.ShloMosaic Idealize.ShloMosaic.TcCoe Idealize.SL.Sem Idealize.ShloMosaic.ValueIdx

namespace Cert.KernelIdeal.Val

open Cert.KernelIdeal Cert.KernelIdeal.Gen Cert.Mp

section
variable (m : (ℓ : Loc nD τ sig) → Buf (Elt Ideal) ℓ) (ρ : Dev nD → PrngReg) (c : Dev nD)

open Idealize.ShloMosaic.StableHlo

namespace Entry1Aux

/-! ### Argument arrays seen from inside the run

No host operation writes an argument array and the message kernel's pipeline leaves every array that is not one of its
own windows as it found it, so an argument read at the message kernel's exit is the launch memory's array. -/

/-- The feature array `x` at the message kernel's exit is the launched one. -/
theorem W2_arg0 : W2 (F := Ideal) m ρ c (Proc.devRef .tc main_arg0) = m ((c.tc : Thread nD τ).loc main_arg0) := by
  rw [W2_of_ne m ρ c main_arg0 (by decide)]
  show StableHlo.after hostOps0 (W0 (F := Ideal) m ρ c) (Proc.devRef .tc main_arg0) = _
  after_results_simp

/-- The node network's first matrix (128 rows) at the message kernel's exit is the launched one. -/
theorem W2_arg7 : W2 (F := Ideal) m ρ c (Proc.devRef .tc main_arg7) = m ((c.tc : Thread nD τ).loc main_arg7) := by
  rw [W2_of_ne m ρ c main_arg7 (by decide)]
  show StableHlo.after hostOps0 (W0 (F := Ideal) m ρ c) (Proc.devRef .tc main_arg7) = _
  after_results_simp

/-- The node network's first bias. -/
theorem W2_arg8 : W2 (F := Ideal) m ρ c (Proc.devRef .tc main_arg8) = m ((c.tc : Thread nD τ).loc main_arg8) := by
  rw [W2_of_ne m ρ c main_arg8 (by decide)]
  show StableHlo.after hostOps0 (W0 (F := Ideal) m ρ c) (Proc.devRef .tc main_arg8) = _
  after_results_simp

/-- The node network's second matrix. -/
theorem W2_arg9 : W2 (F := Ideal) m ρ c (Proc.devRef .tc main_arg9) = m ((c.tc : Thread nD τ).loc main_arg9) := by
  rw [W2_of_ne m ρ c main_arg9 (by decide)]
  show StableHlo.after hostOps0 (W0 (F := Ideal) m ρ c) (Proc.devRef .tc main_arg9) = _
  after_results_simp

/-- The node network's second bias. -/
theorem W2_arg10 : W2 (F := Ideal) m ρ c (Proc.devRef .tc main_arg10) = m ((c.tc : Thread nD τ).loc main_arg10) := by
  rw [W2_of_ne m ρ c main_arg10 (by decide)]
  show StableHlo.after hostOps0 (W0 (F := Ideal) m ρ c) (Proc.devRef .tc main_arg10) = _
  after_results_simp

/-! ### The source-index vector

Row 0 of the edge list, reshaped to a vector of 800000 entries, is written in the first stretch; the message kernel has
no window on it, so it reaches the second stretch unchanged: it is the reference's own index vector of the launched edge
list. -/

/-- At the message kernel's exit the source-index vector is row 0 of the launched edge list as a vector. -/
theorem W2_v1 : (W2 (F := Ideal) m ρ c (Proc.devRef .tc main_v1) : (⟨S800000, .i32⟩ : BufTy).Contents (Elt Ideal))
    = Cert.ReferenceIdeal.Read.val_main_v1 (F := Ideal) (m ((c.tc : Thread nD τ).loc main_arg2)) := by
  rw [W2_of_ne m ρ c main_v1 (by decide)]
  show StableHlo.after hostOps0 (W0 (F := Ideal) m ρ c) (Proc.devRef .tc main_v1) = _
  after_results_simp
  rfl

end Entry1Aux

open Entry1Aux

/-! ## What the node kernel is entered with: the contents after the second stretch -/

/-- The feature window's array: the launched feature array `x`, which neither stretch nor the message kernel writes. -/
theorem entry1_x : V3 (F := Ideal) m ρ c main_arg0 = (m ((c.tc : Thread nD τ).loc main_arg0)) := by
  show StableHlo.after hostOps1 (W2 (F := Ideal) m ρ c) (Proc.devRef .tc main_arg0) = _
  after_results
  exact W2_arg0 m ρ c

/-- The summed-messages window's array: zeros `[50000, 64]` with row `e` of the message kernel's output array added into
    the row named by edge `e`'s source index — the reference's scatter-add, same zeros, same index column, over that array. -/
theorem entry1_summed : V3 (F := Ideal) m ρ c main_v47
    = Host.scatterAdd (F := Ideal) (φ := .f32) Cert.ReferenceIdeal.scatter_S50000x64_S800000x1_S800000x64_1_0_0_1 (Cert.ReferenceIdeal.Read.val_main_v44 (F := Ideal))
        (Cert.ReferenceIdeal.Read.val_main_v45 (F := Ideal) (m ((c.tc : Thread nD τ).loc main_arg2))) (W2 (F := Ideal) m ρ c (Proc.devRef .tc main_v44)) := by
  show StableHlo.after hostOps1 (W2 (F := Ideal) m ρ c) (Proc.devRef .tc main_v47) = _
  after_results
  rw [W2_v1]
  rfl

/-- The count window's array at `(n, 0)`: the number of edges whose source index is `n` (ones added into zeros at the
    source indices), the column layout read back at its one column — the reference's count of node `n`. -/
theorem entry1_cnt (n : Fin 50000) :
    (V3 (F := Ideal) m ρ c main_v52 : (Sh 50000 1).Idx → EReal) (ix2 n (0 : Fin 1)) = Cert.ReferenceIdeal.Read.val_main_v50 (F := Ideal) (m ((c.tc : Thread nD τ).loc main_arg2)) (ix1 n) := by
  have e : (V3 (F := Ideal) m ρ c main_v52 : (⟨S50000x1, .f32⟩ : BufTy).Contents (Elt Ideal))
      = broadcastInDim S50000x1 ![0] bcast_S50000_S50000x1_0 (Cert.ReferenceIdeal.Read.val_main_v50 (F := Ideal) (m ((c.tc : Thread nD τ).loc main_arg2))) := by
    show StableHlo.after hostOps1 (W2 (F := Ideal) m ρ c) (Proc.devRef .tc main_v52) = _
    after_results
    rw [W2_v1]
    rfl
  rw [e]
  exact broadcastInDim_apply _ bcast_S50000_S50000x1_0 _ (ix2 n (0 : Fin 1)) (ix1 n) (fun a => match a with
    | ⟨0, _⟩ => by show n.val = if (50000 : Nat) = 1 then 0 else n.val; rw [if_neg (by decide)])

/-- The first half of the node network's first matrix: entry `(k, h)` is entry `(k, h)` of the launched `[128, 128]` matrix
    (rows 0–63), the change of float format being the identity. -/
theorem entry1_w3x (k : Fin 64) (h : Fin 128) :
    (V3 (F := Ideal) m ρ c main_v54 : (Sh 64 128).Idx → EReal) (ix2 k h) = ((m ((c.tc : Thread nD τ).loc main_arg7)) : (Sh 128 128).Idx → EReal) (ix2 (lo128 k) h) := by
  have e : (V3 (F := Ideal) m ρ c main_v54 : (⟨S64x128, .bf16⟩ : BufTy).Contents (Elt Ideal))
      = truncf (F := Ideal) .bf16 (extractStridedSlice S64x128 ![0, 0] (m ((c.tc : Thread nD τ).loc main_arg7) : (⟨S128x128, .f32⟩ : BufTy).Contents (Elt Ideal)) slices_S128x128_S64x128_0_0) bitsLt_bf16_f32 := by
    show StableHlo.after hostOps1 (W2 (F := Ideal) m ρ c) (Proc.devRef .tc main_v54) = _
    after_results
    rw [W2_arg7]
  rw [e]
  show extractStridedSlice S64x128 ![0, 0] (m ((c.tc : Thread nD τ).loc main_arg7)) slices_S128x128_S64x128_0_0 (ix2 k h) = _
  exact extractStridedSlice_apply ![0, 0] _ slices_S128x128_S64x128_0_0 (ix2 k h) (ix2 (lo128 k) h) (fun a => match a with
    | ⟨0, _⟩ => by show k.val = 0 + k.val; omega
    | ⟨1, _⟩ => by show h.val = 0 + h.val; omega)

/-- The second half of the node network's first matrix: entry `(k, h)` is entry `(64 + k, h)` of the launched `[128, 128]`
    matrix (rows 64–127). -/
theorem entry1_w3a (k : Fin 64) (h : Fin 128) :
    (V3 (F := Ideal) m ρ c main_v56 : (Sh 64 128).Idx → EReal) (ix2 k h) = ((m ((c.tc : Thread nD τ).loc main_arg7)) : (Sh 128 128).Idx → EReal) (ix2 (hi128 k) h) := by
  have e : (V3 (F := Ideal) m ρ c main_v56 : (⟨S64x128, .bf16⟩ : BufTy).Contents (Elt Ideal))
      = truncf (F := Ideal) .bf16 (extractStridedSlice S64x128 ![64, 0] (m ((c.tc : Thread nD τ).loc main_arg7) : (⟨S128x128, .f32⟩ : BufTy).Contents (Elt Ideal)) slices_S128x128_S64x128_64_0) bitsLt_bf16_f32 := by
    show StableHlo.after hostOps1 (W2 (F := Ideal) m ρ c) (Proc.devRef .tc main_v56) = _
    after_results
    rw [W2_arg7]
  rw [e]
  show extractStridedSlice S64x128 ![64, 0] (m ((c.tc : Thread nD τ).loc main_arg7)) slices_S128x128_S64x128_64_0 (ix2 k h) = _
  exact extractStridedSlice_apply ![64, 0] _ slices_S128x128_S64x128_64_0 (ix2 k h) (ix2 (hi128 k) h) (fun a => match a with
    | ⟨0, _⟩ => by show 64 + k.val = 64 + k.val; rfl
    | ⟨1, _⟩ => by show h.val = 0 + h.val; omega)

/-- The node network's first bias: the launched array. -/
theorem entry1_b3 : V3 (F := Ideal) m ρ c main_arg8 = (m ((c.tc : Thread nD τ).loc main_arg8)) := by
  show StableHlo.after hostOps1 (W2 (F := Ideal) m ρ c) (Proc.devRef .tc main_arg8) = _
  after_results
  exact W2_arg8 m ρ c

/-- The node network's second matrix: the launched array, its change of float format being the identity. -/
theorem entry1_w4 : V3 (F := Ideal) m ρ c main_v57 = (m ((c.tc : Thread nD τ).loc main_arg9)) := by
  show StableHlo.after hostOps1 (W2 (F := Ideal) m ρ c) (Proc.devRef .tc main_v57) = _
  after_results
  rw [W2_arg9]
  rfl

/-- The node network's second bias: the launched array. -/
theorem entry1_b4 : V3 (F := Ideal) m ρ c main_arg10 = (m ((c.tc : Thread nD τ).loc main_arg10)) := by
  show StableHlo.after hostOps1 (W2 (F := Ideal) m ρ c) (Proc.devRef .tc main_arg10) = _
  after_results
  exact W2_arg10 m ρ c

end

end Cert.KernelIdeal.Val

end
-- ==== Proof.RefMsg.lean ====
/-
  The reference program's message network, read one entry at a time.

  For every edge `e` the reference gathers a source row `xi` and a target row `xj` (64 entries each) and a relative
  position `rp` (3 entries), joins `[xi, xj − xi, rp]` into one row of 131 entries, multiplies it with the first weight
  matrix (131 × 128), adds the first bias, clamps below at zero, multiplies with the second weight matrix (128 × 64) and
  adds the second bias. Entry `(e, c)` of the result is therefore
      ∑ h, max ((∑ k, [xi, xj − xi, rp] k · W₁ (k, h)) + b₁ h) 0 · W₂ (h, c) + b₂ c,
  which is the row formula `msgRowCat` at column `c`. The proof follows the operations from the last to the first:
  a sum of two arrays is the sum of their entries, a bias broadcast over the rows is the bias at the column, a matrix
  product is the sum over the contracted axis, and the joined array at column `k` is the piece whose span of columns
  holds `k` (columns 0–63 the first, 64–127 the second, 128–130 the third). The three gathered arrays stay opaque: all
  that is used of them is their rows. The last two statements say that a gathered entry is some entry of the table
  it was gathered from.
-/
import proofs.«107336_j16484084483096_2_alg».proof.Proof.Gen.ReferenceIdeal.Read
import proofs.«107336_j16484084483096_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefVal

open Cert.Mp

/-- Three arrays of 64, 64 and 3 columns joined along the columns, at row `e` and column `k`: the piece whose span
    holds `k`, at the column counted from the start of that span. -/
theorem cat_read (A B : Cert.ReferenceIdeal.S800000x64.Idx → EReal) (C : Cert.ReferenceIdeal.S800000x3.Idx → EReal)
    (h : Shape.Concatenates [Cert.ReferenceIdeal.S800000x64, Cert.ReferenceIdeal.S800000x64, Cert.ReferenceIdeal.S800000x3] Cert.ReferenceIdeal.S800000x131 1)
    (e : Fin 800000) (k : Fin 131) :
    concatenate Cert.ReferenceIdeal.S800000x131 1 [⟨Cert.ReferenceIdeal.S800000x64, A⟩, ⟨Cert.ReferenceIdeal.S800000x64, B⟩, ⟨Cert.ReferenceIdeal.S800000x3, C⟩] h (ix2 e k)
      = cat3 (fun k => A (ix2 e k)) (fun k => B (ix2 e k)) (fun k => C (ix2 e k)) k := by
  unfold cat3
  by_cases h₁ : k.val < 64
  · -- columns 0–63: the first piece, nothing before it
    rw [dif_pos h₁]
    refine concatenate_apply_piece (t := Cert.ReferenceIdeal.S800000x131) 1 [⟨Cert.ReferenceIdeal.S800000x64, A⟩, ⟨Cert.ReferenceIdeal.S800000x64, B⟩, ⟨Cert.ReferenceIdeal.S800000x3, C⟩] h (ix2 e k) 0 (by show (0 : Nat) < 3; omega) Cert.ReferenceIdeal.S800000x64 A rfl rfl 0 rfl
      (ix2 e ⟨k.val, h₁⟩) (fun b hb => ?_) ?_
    · match b with
      | ⟨0, _⟩ => rfl
      | ⟨1, _⟩ => exact absurd rfl hb
    · show 0 + k.val = k.val; omega
  · rw [dif_neg h₁]
    by_cases h₂ : k.val < 128
    · -- columns 64–127: the second piece, 64 columns before it
      rw [dif_pos h₂]
      refine concatenate_apply_piece (t := Cert.ReferenceIdeal.S800000x131) 1 [⟨Cert.ReferenceIdeal.S800000x64, A⟩, ⟨Cert.ReferenceIdeal.S800000x64, B⟩, ⟨Cert.ReferenceIdeal.S800000x3, C⟩] h (ix2 e k) 1 (by show (1 : Nat) < 3; omega) Cert.ReferenceIdeal.S800000x64 B rfl rfl 64 rfl
        (ix2 e ⟨k.val - 64, by omega⟩) (fun b hb => ?_) ?_
      · match b with
        | ⟨0, _⟩ => rfl
        | ⟨1, _⟩ => exact absurd rfl hb
      · show 64 + (k.val - 64) = k.val; omega
    · -- columns 128–130: the third piece, 128 columns before it
      rw [dif_neg h₂]
      refine concatenate_apply_piece (t := Cert.ReferenceIdeal.S800000x131) 1 [⟨Cert.ReferenceIdeal.S800000x64, A⟩, ⟨Cert.ReferenceIdeal.S800000x64, B⟩, ⟨Cert.ReferenceIdeal.S800000x3, C⟩] h (ix2 e k) 2 (by show (2 : Nat) < 3; omega) Cert.ReferenceIdeal.S800000x3 C rfl rfl 128 rfl
        (ix2 e ⟨k.val - 128, by have := k.isLt; omega⟩) (fun b hb => ?_) ?_
      · match b with
        | ⟨0, _⟩ => rfl
        | ⟨1, _⟩ => exact absurd rfl hb
      · show 128 + (k.val - 128) = k.val; omega

/-- The joined array of the reference at row `e`: the source row, the difference of the target and the source row, and
    the relative position, side by side. -/
theorem joined_read (x0 : (⟨Cert.ReferenceIdeal.S50000x64, .f32⟩ : BufTy).Contents (Elt Ideal)) (x1 : (⟨Cert.ReferenceIdeal.S50000x3, .f32⟩ : BufTy).Contents (Elt Ideal)) (x2 : (⟨Cert.ReferenceIdeal.S2x800000, .i32⟩ : BufTy).Contents (Elt Ideal)) (e : Fin 800000) (k : Fin 131) :
    Cert.ReferenceIdeal.Read.val_main_v34 (F := Ideal) x0 x1 x2 (ix2 e k)
      = cat3 (fun k => Cert.ReferenceIdeal.Read.val_main_v10 (F := Ideal) x0 x2 (ix2 e k))
          (fun k => Cert.ReferenceIdeal.Read.val_main_v17 (F := Ideal) x0 x2 (ix2 e k) - Cert.ReferenceIdeal.Read.val_main_v10 (F := Ideal) x0 x2 (ix2 e k))
          (fun k => Cert.ReferenceIdeal.Read.val_main_v32 (F := Ideal) x1 x2 (ix2 e k)) k := by
  unfold Cert.ReferenceIdeal.Read.val_main_v34
  exact cat_read _ _ _ _ e k

/-- The hidden layer of the reference at edge `e` and unit `h`: the joined row times column `h` of the first matrix,
    plus the first bias at `h`, clamped below at zero. -/
theorem hid_read (x0 : (⟨Cert.ReferenceIdeal.S50000x64, .f32⟩ : BufTy).Contents (Elt Ideal)) (x1 : (⟨Cert.ReferenceIdeal.S50000x3, .f32⟩ : BufTy).Contents (Elt Ideal)) (x2 : (⟨Cert.ReferenceIdeal.S2x800000, .i32⟩ : BufTy).Contents (Elt Ideal)) (x3 : (⟨Cert.ReferenceIdeal.S131x128, .f32⟩ : BufTy).Contents (Elt Ideal)) (x4 : (⟨Cert.ReferenceIdeal.S128, .f32⟩ : BufTy).Contents (Elt Ideal)) (e : Fin 800000) (h : Fin 128) :
    Cert.ReferenceIdeal.Read.val_main_v39 (F := Ideal) x0 x1 x2 x3 x4 (ix2 e h)
      = msgHidCat (fun k => Cert.ReferenceIdeal.Read.val_main_v10 (F := Ideal) x0 x2 (ix2 e k)) (fun k => Cert.ReferenceIdeal.Read.val_main_v17 (F := Ideal) x0 x2 (ix2 e k))
          (fun k => Cert.ReferenceIdeal.Read.val_main_v32 (F := Ideal) x1 x2 (ix2 e k)) (fun k h => x3 (ix2 k h)) (fun h => x4 (ix1 h)) h := by
  -- where the product reads its two operands, and where the twice broadcast bias reads the bias vector
  have f1 : ∀ k : Fin 131, Cert.ReferenceIdeal.Read.lidx_main_v35 (ix2 e h) k = ix2 e k := fun k =>
    funext fun a => Fin.ext (by match a with | ⟨0, _⟩ => rfl | ⟨1, _⟩ => rfl)
  have f2 : ∀ k : Fin 131, Cert.ReferenceIdeal.Read.ridx_main_v35 (ix2 e h) k = ix2 k h := fun k =>
    funext fun a => Fin.ext (by match a with | ⟨0, _⟩ => rfl | ⟨1, _⟩ => rfl)
  have f3 : Cert.ReferenceIdeal.Read.idx_main_v36 (Cert.ReferenceIdeal.Read.idx_main_v37 (ix2 e h)) = ix1 h :=
    funext fun a => Fin.ext (by match a with | ⟨0, _⟩ => rfl)
  rw [Cert.ReferenceIdeal.Read.val_main_v39_apply, Cert.ReferenceIdeal.Read.val_main_v38_apply, Cert.ReferenceIdeal.Read.val_main_v35_apply, Cert.ReferenceIdeal.Read.val_main_v37_apply,
    Cert.ReferenceIdeal.Read.val_main_v36_apply, Cert.ReferenceIdeal.Read.val_main_call0_v0_apply, Cert.ReferenceIdeal.Read.val_main_call0_cst_apply, f3]
  rw [Finset.sum_congr rfl fun k _ => by rw [f1 k, f2 k, joined_read]]
  rfl

theorem msg_eq (x0 : (⟨Cert.ReferenceIdeal.S50000x64, .f32⟩ : BufTy).Contents (Elt Ideal)) (x1 : (⟨Cert.ReferenceIdeal.S50000x3, .f32⟩ : BufTy).Contents (Elt Ideal)) (x2 : (⟨Cert.ReferenceIdeal.S2x800000, .i32⟩ : BufTy).Contents (Elt Ideal)) (x3 : (⟨Cert.ReferenceIdeal.S131x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) :
    Cert.ReferenceIdeal.Read.val_main_v43 (F := Ideal) x0 x1 x2 x3 x4 x5 x6
      = msgArrCat (Cert.ReferenceIdeal.Read.val_main_v10 (F := Ideal) x0 x2) (Cert.ReferenceIdeal.Read.val_main_v17 (F := Ideal) x0 x2) (Cert.ReferenceIdeal.Read.val_main_v32 (F := Ideal) x1 x2) x3 x4 x5 x6 := by
  funext i
  obtain ⟨e, c, rfl⟩ : ∃ (e : Fin 800000) (c : Fin 64), i = ix2 e c := ⟨i 0, i 1, eq_ix2 i⟩
  -- where the second product reads its two operands, and where the twice broadcast bias reads the bias vector
  have g1 : ∀ k : Fin 128, Cert.ReferenceIdeal.Read.lidx_main_v40 (ix2 e c) k = ix2 e k := fun k =>
    funext fun a => Fin.ext (by match a with | ⟨0, _⟩ => rfl | ⟨1, _⟩ => rfl)
  have g2 : ∀ k : Fin 128, Cert.ReferenceIdeal.Read.ridx_main_v40 (ix2 e c) k = ix2 k c := fun k =>
    funext fun a => Fin.ext (by match a with | ⟨0, _⟩ => rfl | ⟨1, _⟩ => rfl)
  have g3 : Cert.ReferenceIdeal.Read.idx_main_v41 (Cert.ReferenceIdeal.Read.idx_main_v42 (ix2 e c)) = ix1 c :=
    funext fun a => Fin.ext (by match a with | ⟨0, _⟩ => rfl)
  rw [Cert.ReferenceIdeal.Read.val_main_v43_apply, Cert.ReferenceIdeal.Read.val_main_v40_apply, Cert.ReferenceIdeal.Read.val_main_v42_apply, Cert.ReferenceIdeal.Read.val_main_v41_apply, g3]
  rw [Finset.sum_congr rfl fun k _ => by rw [g1 k, g2 k, hid_read]]
  rfl

/-- every entry of a gathered row is an entry of the table -/
theorem gathered_xi (x0 : (⟨Cert.ReferenceIdeal.S50000x64, .f32⟩ : BufTy).Contents (Elt Ideal)) (x2 : (⟨Cert.ReferenceIdeal.S2x800000, .i32⟩ : BufTy).Contents (Elt Ideal)) (y : Cert.ReferenceIdeal.S800000x64.Idx) :
    ∃ j, Cert.ReferenceIdeal.Read.val_main_v10 (F := Ideal) x0 x2 y = x0 j := by
  unfold Cert.ReferenceIdeal.Read.val_main_v10 Host.gather
  exact ⟨_, rfl⟩
theorem gathered_xj (x0 : (⟨Cert.ReferenceIdeal.S50000x64, .f32⟩ : BufTy).Contents (Elt Ideal)) (x2 : (⟨Cert.ReferenceIdeal.S2x800000, .i32⟩ : BufTy).Contents (Elt Ideal)) (y : Cert.ReferenceIdeal.S800000x64.Idx) :
    ∃ j, Cert.ReferenceIdeal.Read.val_main_v17 (F := Ideal) x0 x2 y = x0 j := by
  unfold Cert.ReferenceIdeal.Read.val_main_v17 Host.gather
  exact ⟨_, rfl⟩

end Cert.ReferenceIdeal.RefVal

end
-- ==== Proof.RefUpd.lean ====
import proofs.«107336_j16484084483096_2_alg».proof.Proof.Gen.ReferenceIdeal.Read
import proofs.«107336_j16484084483096_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefVal

open Cert.Mp

/-!
# The reference's node update, read index by index

The reference program ends with a small network applied to every node `n` of 50000. Its input row is the node's own
64 features followed by the mean of the messages that reached it: the summed message row divided, entry by entry, by
the number of messages clamped below at one. A first layer of 128 units (one matrix product over the 128 joined
entries, a bias, a comparison with zero) is followed by a second product down to 64 outputs and a bias.

The program spells this out with whole-array operations: broadcasts of the biases and of the clamped count, a
concatenation of the two halves of the input row, two contractions. Each of them, read at one index, is its operand at
an index given by coordinate arithmetic, so the output at `(n, c)` unfolds, stage by stage, to the row formula
`updRowCat` of the specification evaluated on row `n` of the arguments. The summed messages and the counts are kept as
the opaque arrays the program computes; nothing about them is used here.
-/

namespace RefUpdAux

section Stages

open Cert.ReferenceIdeal Cert.ReferenceIdeal.Gen Cert.ReferenceIdeal.Read

/-- The clamped count spread along a row: every column of row `n` of the divisor holds `max (count n) 1`. The
    count vector is first made a column and then repeated along the 64 columns; both steps keep the row coordinate. -/
theorem divisor_at (x2 : (⟨S2x800000, .i32⟩ : BufTy).Contents (Elt Ideal)) (n : Fin 50000) (q : Fin 64) :
    val_main_v54 (F := Ideal) x2 (ix2 n q) = max (val_main_v50 (F := Ideal) x2 (ix1 n)) One := by
  have e : idx_main_v53 (idx_main_v54 (ix2 n q)) = ix1 n :=
    funext fun a => Fin.ext (by match a with | ⟨0, _⟩ => rfl)
  rw [val_main_v54_apply, val_main_v53_apply, val_main_v52_apply, val_main_v51_apply, val_main_cst_9_apply, e]
  rfl

/-- Row `n` of the quotient is the mean row: the summed messages of node `n` over its clamped count. -/
theorem mean_at (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S131x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (n : Fin 50000) (q : Fin 64) :
    val_main_v55 (F := Ideal) x0 x1 x2 x3 x4 x5 x6 (ix2 n q) = (meanRow (fun c => val_main_v46 (F := Ideal) x0 x1 x2 x3 x4 x5 x6 (ix2 n c)) (val_main_v50 (F := Ideal) x2 (ix1 n))) q := by
  rw [val_main_v55_apply, divisor_at]
  rfl

/-- Row `n` of the joined array is the node's features followed by its mean row. A column below 64 falls in the first
    piece at the same column; a column from 64 on falls in the second piece, 64 columns earlier. -/
theorem joined_at (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S131x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (n : Fin 50000) (k : Fin 128) :
    val_main_v56 (F := Ideal) x0 x1 x2 x3 x4 x5 x6 (ix2 n k) = cat2 (fun c => x0 (ix2 n c)) (meanRow (fun c => val_main_v46 (F := Ideal) x0 x1 x2 x3 x4 x5 x6 (ix2 n c)) (val_main_v50 (F := Ideal) x2 (ix1 n))) k := by
  have hk2 := k.isLt
  unfold val_main_v56 cat2
  by_cases hk : k.val < 64
  · rw [dif_pos hk]
    exact concatenate_pair_apply_left (t := S50000x128) 1 x0 _ concatenates_S50000x64_S50000x64_S50000x128_d1
      (ix2 n k) rfl (ix2 n ⟨k.val, hk⟩) (fun b => by
        match b with
        | ⟨0, _⟩ => rfl
        | ⟨1, _⟩ => rfl)
  · rw [dif_neg hk]
    refine (concatenate_pair_apply_right (t := S50000x128) 1 x0 _ concatenates_S50000x64_S50000x64_S50000x128_d1
      (ix2 n k) rfl rfl (ix2 n ⟨k.val - 64, by omega⟩) (fun b hb => by
        match b with
        | ⟨0, _⟩ => rfl
        | ⟨1, _⟩ => exact absurd rfl hb) ?_).trans (mean_at x0 x1 x2 x3 x4 x5 x6 n _)
    show (k.val - 64) + 64 = k.val
    omega

/-- Hidden unit `h` of node `n`: the product of the joined row with column `h` of the first matrix, plus the bias,
    compared with zero. -/
theorem hidden_at (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S131x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (n : Fin 50000) (h : Fin 128) :
    val_main_v61 (F := Ideal) x0 x1 x2 x3 x4 x5 x6 x7 x8 (ix2 n h)
      = updHidCat (fun c => x0 (ix2 n c)) (meanRow (fun c => val_main_v46 (F := Ideal) x0 x1 x2 x3 x4 x5 x6 (ix2 n c)) (val_main_v50 (F := Ideal) x2 (ix1 n))) (fun k h => x7 (ix2 k h)) (fun h => x8 (ix1 h)) h := by
  have eb : idx_main_v58 (idx_main_v59 (ix2 n h)) = ix1 h :=
    funext fun a => Fin.ext (by match a with | ⟨0, _⟩ => rfl)
  have el : ∀ k : Fin 128, lidx_main_v57 (ix2 n h) k = ix2 n k := fun k =>
    funext fun a => Fin.ext (by match a with | ⟨0, _⟩ => rfl | ⟨1, _⟩ => rfl)
  have er : ∀ k : Fin 128, ridx_main_v57 (ix2 n h) k = ix2 k h := fun k =>
    funext fun a => Fin.ext (by match a with | ⟨0, _⟩ => rfl | ⟨1, _⟩ => rfl)
  have hs : (∑ k : Fin 128, val_main_v56 (F := Ideal) x0 x1 x2 x3 x4 x5 x6 (lidx_main_v57 (ix2 n h) k) * x7 (ridx_main_v57 (ix2 n h) k))
      = ∑ k : Fin 128, cat2 (fun c => x0 (ix2 n c)) (meanRow (fun c => val_main_v46 (F := Ideal) x0 x1 x2 x3 x4 x5 x6 (ix2 n c)) (val_main_v50 (F := Ideal) x2 (ix1 n))) k * x7 (ix2 k h) :=
    Finset.sum_congr rfl fun k _ => by rw [el k, er k, joined_at]
  rw [val_main_v61_apply, val_main_v60_apply, val_main_v57_apply, val_main_v59_apply, val_main_v58_apply,
    val_main_call1_v0_apply, val_main_call1_cst_apply, eb, hs]
  rfl

end Stages

end RefUpdAux

open RefUpdAux

/-- The reference's node array is the row formula of the specification, row by row: the second product over the 128
    hidden units of the node, plus the second bias at the column. -/
theorem upd_eq (x0 : (⟨Cert.ReferenceIdeal.S50000x64, .f32⟩ : BufTy).Contents (Elt Ideal)) (x1 : (⟨Cert.ReferenceIdeal.S50000x3, .f32⟩ : BufTy).Contents (Elt Ideal)) (x2 : (⟨Cert.ReferenceIdeal.S2x800000, .i32⟩ : BufTy).Contents (Elt Ideal)) (x3 : (⟨Cert.ReferenceIdeal.S131x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) :
    Cert.ReferenceIdeal.Read.val_main_v65 (F := Ideal) x0 x1 x2 x3 x4 x5 x6 x7 x8 x9 x10
      = updArrCat x0 (Cert.ReferenceIdeal.Read.val_main_v46 (F := Ideal) x0 x1 x2 x3 x4 x5 x6) (Cert.ReferenceIdeal.Read.val_main_v50 (F := Ideal) x2) x7 x8 x9 x10 := by
  funext i
  obtain ⟨n, c, rfl⟩ : ∃ (n : Fin 50000) (c : Fin 64), i = ix2 n c := ⟨i 0, i 1, eq_ix2 i⟩
  have eb : Cert.ReferenceIdeal.Read.idx_main_v63 (Cert.ReferenceIdeal.Read.idx_main_v64 (ix2 n c)) = ix1 c :=
    funext fun a => Fin.ext (by match a with | ⟨0, _⟩ => rfl)
  have el : ∀ h : Fin 128, Cert.ReferenceIdeal.Read.lidx_main_v62 (ix2 n c) h = ix2 n h := fun h =>
    funext fun a => Fin.ext (by match a with | ⟨0, _⟩ => rfl | ⟨1, _⟩ => rfl)
  have er : ∀ h : Fin 128, Cert.ReferenceIdeal.Read.ridx_main_v62 (ix2 n c) h = ix2 h c := fun h =>
    funext fun a => Fin.ext (by match a with | ⟨0, _⟩ => rfl | ⟨1, _⟩ => rfl)
  have hs : (∑ h : Fin 128, Cert.ReferenceIdeal.Read.val_main_v61 (F := Ideal) x0 x1 x2 x3 x4 x5 x6 x7 x8 (Cert.ReferenceIdeal.Read.lidx_main_v62 (ix2 n c) h) * x9 (Cert.ReferenceIdeal.Read.ridx_main_v62 (ix2 n c) h))
      = ∑ h : Fin 128, updHidCat (fun k => x0 (ix2 n k))
          (meanRow (fun k => Cert.ReferenceIdeal.Read.val_main_v46 (F := Ideal) x0 x1 x2 x3 x4 x5 x6 (ix2 n k)) (Cert.ReferenceIdeal.Read.val_main_v50 (F := Ideal) x2 (ix1 n)))
          (fun k h => x7 (ix2 k h)) (fun h => x8 (ix1 h)) h * x9 (ix2 h c) :=
    Finset.sum_congr rfl fun h _ => by rw [el h, er h, hidden_at]
  rw [Cert.ReferenceIdeal.Read.val_main_v65_apply, Cert.ReferenceIdeal.Read.val_main_v62_apply,
    Cert.ReferenceIdeal.Read.val_main_v64_apply, Cert.ReferenceIdeal.Read.val_main_v63_apply, eb, hs]
  rfl

end Cert.ReferenceIdeal.RefVal

end
-- ==== Proof.lean ====
/-
  Message passing on a graph: the kernel program and its reference compute the same node update, over the extended reals.

  Both programs take node features `x` [50000, 64], positions [50000, 3], an edge list [2, 800000] and four weight
  matrices with their biases. For every edge they gather the source row `xi`, the target row `xj` and the relative
  position `rp`, pass them through a two-layer network to a message of 64 entries, add the messages of every node's
  edges (a scatter-add; the counts by a second one), divide by the count clamped below at one, and pass `[x, mean]`
  through a second two-layer network.

  The programs differ in two places only, both in the FIRST layer of a network. The reference joins `[xi, xj − xi, rp]`
  into one row of 131 entries and multiplies by the whole matrix `W1`; the kernel multiplies `xi` by the difference of
  `W1`'s first two row blocks, `xj` by the second block and `rp` by the third, and adds. Termwise this is
  `a·(p − q) + b·q = a·p + (b − a)·q`: distributivity, which on the extended reals holds for real numbers and fails at the
  infinities — the precondition (every float input finite) is used exactly here, for `x` and `W1`; a gathered row is a
  row of `x` (a gather clamps its index), so it is finite too. In the second network the reference joins `[x, mean]` into
  128 entries and the kernel adds two products over 64: a regrouping of one sum, which needs no finiteness.
  Everything else — the gathers, the scatter-adds, the second layers — is the same operation on both sides and is never
  opened: once the message arrays are equal, the scatter-adds of them are equal.

  The kernel program runs two kernels. Its run is read in `KernelRun`: the result is the second kernel's output array as
  its ten row blocks leave it. `UpdArray` and `MsgArray` say what those arrays are as whole-array functions of what each
  kernel is entered with (row by row, from `Payload`: the body's arithmetic at an index); `Entry0` and `Entry1` read what
  each kernel is entered with back to the arguments; `RefMsg` and `RefUpd` read the reference's two networks; `Algebra`
  has the two laws and `Finite` the finiteness of `x` and `W1`. Below they are put together.
-/
import proofs.«107336_j16484084483096_2_alg».proof.Defs
import proofs.«107336_j16484084483096_2_alg».proof.Proof.Gen.Kernel
import proofs.«107336_j16484084483096_2_alg».proof.Proof.Gen.Kernel.Skeleton
import proofs.«107336_j16484084483096_2_alg».proof.Proof.Gen.Kernel.Launch
import proofs.«107336_j16484084483096_2_alg».proof.Proof.Gen.Kernel.Points
import proofs.«107336_j16484084483096_2_alg».proof.Proof.Gen.Kernel.Frame
import proofs.«107336_j16484084483096_2_alg».proof.Proof.Gen.KernelIdeal
import proofs.«107336_j16484084483096_2_alg».proof.Proof.Gen.KernelIdeal.Skeleton
import proofs.«107336_j16484084483096_2_alg».proof.Proof.Gen.KernelIdeal.Launch
import proofs.«107336_j16484084483096_2_alg».proof.Proof.Gen.KernelIdeal.Points
import proofs.«107336_j16484084483096_2_alg».proof.Proof.Gen.KernelIdeal.Frame
import proofs.«107336_j16484084483096_2_alg».proof.Proof.Gen.ReferenceIdeal
import proofs.«107336_j16484084483096_2_alg».proof.Proof.Gen.Pre_finite_inputs
import proofs.«107336_j16484084483096_2_alg».proof.Proof.Gen.ReferenceIdeal.Run
import proofs.«107336_j16484084483096_2_alg».proof.Proof.Gen.ReferenceIdeal.Read
import proofs.«107336_j16484084483096_2_alg».proof.Proof.Spec
import proofs.«107336_j16484084483096_2_alg».proof.Proof.Algebra
import proofs.«107336_j16484084483096_2_alg».proof.Proof.Finite
import proofs.«107336_j16484084483096_2_alg».proof.Proof.KernelRun
import proofs.«107336_j16484084483096_2_alg».proof.Proof.Payload
import proofs.«107336_j16484084483096_2_alg».proof.Proof.MsgArray
import proofs.«107336_j16484084483096_2_alg».proof.Proof.UpdArray
import proofs.«107336_j16484084483096_2_alg».proof.Proof.Entry0
import proofs.«107336_j16484084483096_2_alg».proof.Proof.Entry1
import proofs.«107336_j16484084483096_2_alg».proof.Proof.RefMsg
import proofs.«107336_j16484084483096_2_alg».proof.Proof.RefUpd
import Idealize.ShloMosaic.Adequacy
import Idealize.ShloMosaic.Init

noncomputable section

open Idealize.ShloMosaic Idealize.ShloMosaic.TcCoe Idealize.SL.Sem Idealize.ShloMosaic.ValueIdx

namespace Cert.Proof

open Cert.Mp Cert.KernelIdeal.Val Cert.ReferenceIdeal.RefVal
open Cert.KernelIdeal.Gen (V1 V3 W2 W4 W2_arr W4_arr dat0 dat1)

section
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The first weight matrix as launched, over plain coordinates. -/
abbrev w1At : Fin 131 → Fin 128 → EReal := fun k h => ((m ((c.tc : Thread Cert.KernelIdeal.nD Cert.KernelIdeal.τ).loc Cert.KernelIdeal.main_arg3)) : (Sh 131 128).Idx → EReal) (ix2 k h)
/-- The third weight matrix as launched, over plain coordinates. -/
abbrev w3At : Fin 128 → Fin 128 → EReal := fun k h => ((m ((c.tc : Thread Cert.KernelIdeal.nD Cert.KernelIdeal.τ).loc Cert.KernelIdeal.main_arg7)) : (Sh 128 128).Idx → EReal) (ix2 k h)

/-- The message array the first kernel leaves is the reference's message array. -/
theorem msg_value (hpre : Cert.Pre_KernelIdeal m) :
    W2 (F := Ideal) m ρ c (Proc.devRef .tc Cert.KernelIdeal.main_v44)
      = Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  have hfin := real_x_w1 m hpre c
  refine (W2_arr m ρ c 9).trans ((msg_array (V1 (F := Ideal) m ρ) c).trans (Eq.trans ?_ (msg_eq _ _ _ _ _ _ _).symm))
  rw [entry0_xi m ρ c, entry0_xj m ρ c, entry0_rp m ρ c, entry0_b1 m ρ c, entry0_w2 m ρ c, entry0_b2 m ρ c]
  funext i
  have hab : (fun (k : Fin 64) (h : Fin 128) => (V1 (F := Ideal) m ρ c Cert.KernelIdeal.main_v7 : (Sh 64 128).Idx → EReal) (ix2 k h))
      = fun k h => w1At m c (lo131 k) h - w1At m c (mid131 k) h :=
    funext fun k => funext fun h => entry0_wab m ρ c k h
  have hb : (fun (k : Fin 64) (h : Fin 128) => (V1 (F := Ideal) m ρ c Cert.KernelIdeal.main_v9 : (Sh 64 128).Idx → EReal) (ix2 k h))
      = fun k h => w1At m c (mid131 k) h :=
    funext fun k => funext fun h => entry0_wb m ρ c k h
  have hc : (fun (k : Fin 3) (h : Fin 128) => (V1 (F := Ideal) m ρ c Cert.KernelIdeal.main_v11 : (Sh 3 128).Idx → EReal) (ix2 k h))
      = fun k h => w1At m c (hi131 k) h :=
    funext fun k => funext fun h => entry0_wc m ρ c k h
  show msgRowSplit _ _ _ (fun (k : Fin 64) (h : Fin 128) => (V1 (F := Ideal) m ρ c Cert.KernelIdeal.main_v7 : (Sh 64 128).Idx → EReal) (ix2 k h))
      (fun (k : Fin 64) (h : Fin 128) => (V1 (F := Ideal) m ρ c Cert.KernelIdeal.main_v9 : (Sh 64 128).Idx → EReal) (ix2 k h))
      (fun (k : Fin 3) (h : Fin 128) => (V1 (F := Ideal) m ρ c Cert.KernelIdeal.main_v11 : (Sh 3 128).Idx → EReal) (ix2 k h)) _ _ _ _
    = msgRowCat _ _ _ (w1At m c) _ _ _ _
  rw [hab, hb, hc]
  refine msgRow_eq _ _ _ (w1At m c) _ _ _ _ (fun k => ?_) (fun k => ?_) (fun k h => hfin.2 _)
  · obtain ⟨j, hj⟩ := gathered_xi (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (ix2 (r2 i) k)
    exact hj ▸ hfin.1 j
  · obtain ⟨j, hj⟩ := gathered_xj (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (ix2 (r2 i) k)
    exact hj ▸ hfin.1 j

/-- The result array the second kernel leaves is the reference's result. -/
theorem kernel_value (hpre : Cert.Pre_KernelIdeal m) :
    W4 (F := Ideal) m ρ c (Proc.devRef .tc Cert.KernelIdeal.main_v58)
      = Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  have hS : V3 (F := Ideal) m ρ c Cert.KernelIdeal.main_v47
      = Cert.ReferenceIdeal.Read.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    (entry1_summed m ρ c).trans (by rw [msg_value m ρ c hpre]; rfl)
  refine (W4_arr m ρ c 8).trans ((upd_array (V3 (F := Ideal) m ρ) c).trans (Eq.trans ?_ (upd_eq _ _ _ _ _ _ _ _ _ _ _).symm))
  rw [entry1_x m ρ c, hS, entry1_b3 m ρ c, entry1_w4 m ρ c, entry1_b4 m ρ c]
  funext i
  have hx : (fun (k : Fin 64) (h : Fin 128) => (V3 (F := Ideal) m ρ c Cert.KernelIdeal.main_v54 : (Sh 64 128).Idx → EReal) (ix2 k h))
      = fun k h => w3At m c (lo128 k) h :=
    funext fun k => funext fun h => entry1_w3x m ρ c k h
  have ha : (fun (k : Fin 64) (h : Fin 128) => (V3 (F := Ideal) m ρ c Cert.KernelIdeal.main_v56 : (Sh 64 128).Idx → EReal) (ix2 k h))
      = fun k h => w3At m c (hi128 k) h :=
    funext fun k => funext fun h => entry1_w3a m ρ c k h
  show updRowSplit _ (meanRow _ ((V3 (F := Ideal) m ρ c Cert.KernelIdeal.main_v52 : (Sh 50000 1).Idx → EReal) (ix2 (r2 i) (0 : Fin 1))))
      (fun (k : Fin 64) (h : Fin 128) => (V3 (F := Ideal) m ρ c Cert.KernelIdeal.main_v54 : (Sh 64 128).Idx → EReal) (ix2 k h))
      (fun (k : Fin 64) (h : Fin 128) => (V3 (F := Ideal) m ρ c Cert.KernelIdeal.main_v56 : (Sh 64 128).Idx → EReal) (ix2 k h)) _ _ _ _
    = updRowCat _ _ (w3At m c) _ _ _ _
  rw [hx, ha, entry1_cnt m ρ c (r2 i)]
  exact updRow_eq _ _ (w3At m c) _ _ _ _

end

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

theorem algebraic : Cert.algebraic_KernelIdeal_ReferenceIdeal := by
  intro m ρ m' ρ' hpre hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (kernel_value m ρ c hpre), (h c).2⟩) (Cert.KernelIdeal.Val.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v65_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
